-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4x128 : Shape := ⟨3, ![4096, 4, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x4x128 : S_.BroadcastsInDim S4096x4x128 (![] : Fin 0 → Fin S4096x4x128.rank)
  reducesTo_S4096x4x128_S_d0_1_2 : S4096x4x128.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4096x4x128 .f32) (main_arg1 : FVec F S4096x4096 .f32) (main_arg2 : FVec F S128x128 .f32) (main_arg3 : FVec F S128 .f32) (main_arg4 : FVec F S128 .f32) : IVec S_ 1 :=
  let main_v0 : FVec F S4096x4x128 .f32 := Host.absf main_arg0
  let main_cst : FVec F S_ .f32 := constant S_ .f32 0x7F800000#32
  let main_v1 : FVec F S4096x4x128 .f32 := broadcastInDim S4096x4x128 ![] bcast_S_S4096x4x128 main_cst
  let main_v2 : IVec S4096x4x128 1 := cmpf .olt main_v0 main_v1
  let main_c : IVec S_ 1 := constantI S_ 1 1#1
  let main_v3 : IVec S_ 1 := (fun x v => Host.reduce IntOp.andi x v reducesTo_S4096x4x128_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S4096x4x128 : Shape := ⟨3, ![4096, 4, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S256x4096 : Shape := ⟨2, ![256, 4096]⟩
abbrev S256x4x128 : Shape := ⟨3, ![256, 4, 128]⟩
abbrev S4096x512 : Shape := ⟨2, ![4096, 512]⟩
abbrev S4096x1x128 : Shape := ⟨3, ![4096, 1, 128]⟩
abbrev S4096x128 : Shape := ⟨2, ![4096, 128]⟩
abbrev S256x512 : Shape := ⟨2, ![256, 512]⟩
abbrev S256x1x128 : Shape := ⟨3, ![256, 1, 128]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x4x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S4096x4x128, .f32⟩
  | .local _ .vmem, ⟨0, _⟩ => ⟨S4096x4x128, .f32⟩
  | .local _ .vmem, ⟨1, _⟩ => ⟨S256x4096, .f32⟩
  | .local _ .vmem, ⟨2, _⟩ => ⟨S256x4096, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S256x4x128, .f32⟩
  | .local _ .vmem, ⟨7, _⟩ => ⟨S256x4x128, .f32⟩
  | .local _ .vmem, ⟨8, _⟩ => ⟨S4096x512, .bf16⟩
  | _, _ => ⟨S4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c256_i32 : BitVec 32 := 256#32
  let v11 : BitVec 32 := Scalar.muli arg0 c256_i32
  let v12 : Index := Scalar.indexCast v11
  let c0_8 : Index := 0#32
  let c0_9 : Index := 0#32
  ![v12.toNat, 0, 0]
def k0_off2 (i : grid0.Coords) : Fin 3 → Nat :=
  let arg0 : BitVec 32 := BitVec.ofNat 32 (i 0).val
  let c256_i32 : BitVec 32 := 256#32
  let v11 : BitVec 32 := Scalar.muli arg0 c256_i32
  let v42 : Index := Scalar.indexCast v11
  let c1 : Index := 1#32
  let c0_19 : Index := 0#32
  ![v42.toNat, 1, 0]
def k0_off3 (i : grid0.Coords) : Fin 3 → Nat :=
  let arg0 : BitVec 32 := BitVec.ofNat 32 (i 0).val
  let c256_i32 : BitVec 32 := 256#32
  let v11 : BitVec 32 := Scalar.muli arg0 c256_i32
  let v72 : Index := Scalar.indexCast v11
  let c2 : Index := 2#32
  let c0_29 : Index := 0#32
  ![v72.toNat, 2, 0]
def k0_off4 (i : grid0.Coords) : Fin 3 → Nat :=
  let arg0 : BitVec 32 := BitVec.ofNat 32 (i 0).val
  let c256_i32 : BitVec 32 := 256#32
  let v11 : BitVec 32 := Scalar.muli arg0 c256_i32
  let v102 : Index := Scalar.indexCast v11
  let c3 : Index := 3#32
  let c0_39 : Index := 0#32
  ![v102.toNat, 3, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S4096x4x128_S4096x1x128_0_0_0 : ∀ a, (![0, 0, 0] : Fin 3 → Nat) a + S4096x1x128.size a ≤ S4096x4x128.size a
  h_S4096x1x128 : 0 < S4096x1x128.numel
  shapeCasts_S4096x1x128_S4096x128 : S4096x1x128.ShapeCasts S4096x128
  inb_S4096x512_S4096x128_0_0 : ∀ a, (![0, 0] : Fin 2 → Nat) a + S4096x128.size a ≤ S4096x512.size a
  h_S4096x128 : 0 < S4096x128.numel
  shapeCasts_S4096x128_S4096x128 : S4096x128.ShapeCasts S4096x128
  packedbf16_S4096x512_S4096x128_0_0 : (Rect.unit (s := S4096x512) ![0, 0] S4096x128.size inb_S4096x512_S4096x128_0_0).PackedRows (EltTy.packing .bf16)
  inb_S4096x4x128_S4096x1x128_0_1_0 : ∀ a, (![0, 1, 0] : Fin 3 → Nat) a + S4096x1x128.size a ≤ S4096x4x128.size a
  inb_S4096x512_S4096x128_0_128 : ∀ a, (![0, 128] : Fin 2 → Nat) a + S4096x128.size a ≤ S4096x512.size a
  packedbf16_S4096x512_S4096x128_0_128 : (Rect.unit (s := S4096x512) ![0, 128] S4096x128.size inb_S4096x512_S4096x128_0_128).PackedRows (EltTy.packing .bf16)
  inb_S4096x4x128_S4096x1x128_0_2_0 : ∀ a, (![0, 2, 0] : Fin 3 → Nat) a + S4096x1x128.size a ≤ S4096x4x128.size a
  inb_S4096x512_S4096x128_0_256 : ∀ a, (![0, 256] : Fin 2 → Nat) a + S4096x128.size a ≤ S4096x512.size a
  packedbf16_S4096x512_S4096x128_0_256 : (Rect.unit (s := S4096x512) ![0, 256] S4096x128.size inb_S4096x512_S4096x128_0_256).PackedRows (EltTy.packing .bf16)
  inb_S4096x4x128_S4096x1x128_0_3_0 : ∀ a, (![0, 3, 0] : Fin 3 → Nat) a + S4096x1x128.size a ≤ S4096x4x128.size a
  inb_S4096x512_S4096x128_0_384 : ∀ a, (![0, 384] : Fin 2 → Nat) a + S4096x128.size a ≤ S4096x512.size a
  packedbf16_S4096x512_S4096x128_0_384 : (Rect.unit (s := S4096x512) ![0, 384] S4096x128.size inb_S4096x512_S4096x128_0_384).PackedRows (EltTy.packing .bf16)
  inb_S256x4096_S256x4096_0_0 : ∀ a, (![0, 0] : Fin 2 → Nat) a + S256x4096.size a ≤ S256x4096.size a
  h_S256x4096 : 0 < S256x4096.numel
  inb_S4096x512_S4096x512_0_0 : ∀ a, (![0, 0] : Fin 2 → Nat) a + S4096x512.size a ≤ S4096x512.size a
  h_S4096x512 : 0 < S4096x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S256x1x128 : 0 < S256x1x128.numel
  shapeCasts_S256x1x128_S256x128 : S256x1x128.ShapeCasts S256x128
  slices_S256x512_o0_0_S256x128 : S256x512.Slices ![0, 0] S256x128
  reduces_S256x128_S256 : S256x128.Reduces [1] S256
  shapeCasts_S256_S256x1 : S256.ShapeCasts S256x1
  broadcasts_S256x1_S256x128 : S256x1.Broadcasts S256x128
  broadcasts_S1x128_S256x128 : S1x128.Broadcasts S256x128
  inb_S256x4x128_S256x1x128_0_0_0 : ∀ a, (![0, 0, 0] : Fin 3 → Nat) a + S256x1x128.size a ≤ S256x4x128.size a
  shapeCasts_S256x128_S256x1x128 : S256x128.ShapeCasts S256x1x128
  slices_S256x512_o0_128_S256x128 : S256x512.Slices ![0, 128] S256x128
  inb_S256x4x128_S256x1x128_0_1_0 : ∀ a, (![0, 1, 0] : Fin 3 → Nat) a + S256x1x128.size a ≤ S256x4x128.size a
  slices_S256x512_o0_256_S256x128 : S256x512.Slices ![0, 256] S256x128
  inb_S256x4x128_S256x1x128_0_2_0 : ∀ a, (![0, 2, 0] : Fin 3 → Nat) a + S256x1x128.size a ≤ S256x4x128.size a
  slices_S256x512_o0_384_S256x128 : S256x512.Slices ![0, 384] S256x128
  inb_S256x4x128_S256x1x128_0_3_0 : ∀ a, (![0, 3, 0] : Fin 3 → Nat) a + S256x1x128.size a ≤ S256x4x128.size a
  dot_S4096x128_S128x128_S4096x128_1_0_0_1_n_n_wf : DotDims.WF S4096x128 S128x128 S4096x128 [1] [0] [0] [1] [] []
  dot_S256x4096_S4096x512_S256x512_1_0_0_1_n_n_wf : DotDims.WF S256x4096 S4096x512 S256x512 [1] [0] [0] [1] [] []
  hrank0 : 0 < grid0.rank
  k0_off1_inb : ∀ i : grid0.Coords, ∀ a, (k0_off1 i) a + S256x1x128.size a ≤ S4096x4x128.size a
  k0_off2_inb : ∀ i : grid0.Coords, ∀ a, (k0_off2 i) a + S256x1x128.size a ≤ S4096x4x128.size a
  k0_off3_inb : ∀ i : grid0.Coords, ∀ a, (k0_off3 i) a + S256x1x128.size a ≤ S4096x4x128.size a
  k0_off4_inb : ∀ i : grid0.Coords, ∀ a, (k0_off4 i) a + S256x1x128.size a ≤ S4096x4x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x4x128.size a ≤ S4096x4x128.size a
  hwx0_0 : ∀ i : grid0.Coords, EltTy.bits .f32 = 32 ∨ (Rect.block (s := S4096x4x128) S4096x4x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4x128.size a ≤ S4096x4x128.size a
  hwx0_5 : ∀ i : grid0.Coords, EltTy.bits .f32 = 32 ∨ (Rect.block (s := S4096x4x128) S256x4x128.size (cc0_transform_5 i) (hinb0_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S4096x4x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x4x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4x128 : Shape := ⟨3, ![4096, 4, 128]⟩
abbrev S4096x4096 : Shape := ⟨2, ![4096, 4096]⟩
abbrev S128x128 : Shape := ⟨2, ![128, 128]⟩
abbrev S128 : Shape := ⟨1, ![128]⟩
abbrev S4096x512 : Shape := ⟨2, ![4096, 512]⟩
abbrev S16384x128 : Shape := ⟨2, ![16384, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x4x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S4096x512, .f32⟩
  | .hbm, ⟨6, _⟩ => ⟨S4096x512, .f32⟩
  | .hbm, ⟨7, _⟩ => ⟨S16384x128, .f32⟩
  | .hbm, ⟨8, _⟩ => ⟨S16384x128, .f32⟩
  | .hbm, ⟨9, _⟩ => ⟨S4096x4x128, .f32⟩
  | .hbm, ⟨10, _⟩ => ⟨S_, .f32⟩
  | .hbm, ⟨11, _⟩ => ⟨S4096x4x128, .f32⟩
  | .hbm, ⟨12, _⟩ => ⟨S4096x4x128, .f32⟩
  | .hbm, ⟨13, _⟩ => ⟨S4096x4x128, .f32⟩
  | .hbm, ⟨14, _⟩ => ⟨S_, .f32⟩
  | .hbm, ⟨15, _⟩ => ⟨S4096x4, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S_, .i32⟩
  | .hbm, ⟨21, _⟩ => ⟨S_, .f32⟩
  | .hbm, ⟨22, _⟩ => ⟨S4096x4, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4, .f32⟩
  | .hbm, ⟨35, _⟩ => ⟨S4096x4x1, .f32⟩
  | .hbm, ⟨36, _⟩ => ⟨S4096x4x1, .f32⟩
  | .hbm, ⟨37, _⟩ => ⟨S4096x4x1, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S4096x4x1, .f32⟩
  | .hbm, ⟨43, _⟩ => ⟨S4096x4x1, .f32⟩
  | .hbm, ⟨44, _⟩ => ⟨S4096x4x128, .f32⟩
  | .hbm, ⟨45, _⟩ => ⟨S4096x4x128, .f32⟩
  | .hbm, ⟨46, _⟩ => ⟨S_, .f32⟩
  | .hbm, ⟨47, _⟩ => ⟨S4096x4x1, .f32⟩
  | .hbm, ⟨48, _⟩ => ⟨S4096x4x1, .f32⟩
  | .hbm, ⟨49, _⟩ => ⟨S4096x4x1, .f32⟩
  | .hbm, ⟨50, _⟩ => ⟨S4096x4x128, .f32⟩
  | .hbm, ⟨51, _⟩ => ⟨S4096x4x128, .f32⟩
  | .hbm, ⟨52, _⟩ => ⟨S1x1x128, .f32⟩
  | .hbm, ⟨53, _⟩ => ⟨S4096x4x128, .f32⟩
  | .hbm, ⟨54, _⟩ => ⟨S4096x4x128, .f32⟩
  | .hbm, ⟨55, _⟩ => ⟨S1x1x128, .f32⟩
  | .hbm, ⟨56, _⟩ => ⟨S4096x4x128, .f32⟩
  | .hbm, ⟨57, _⟩ => ⟨S4096x4x128, .f32⟩
  | _, _ => ⟨S4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩

abbrev nD : Nat := 1
abbrev τ : Topo := Topo.v7x

variable {F : FTy → Type} [FloatOps F]

class Facts₀ : Prop where
  shapeCasts_S4096x4x128_S4096x512 : S4096x4x128.ShapeCasts S4096x512
  shapeCasts_S4096x512_S16384x128 : S4096x512.ShapeCasts S16384x128
  shapeCasts_S16384x128_S4096x4x128 : S16384x128.ShapeCasts S4096x4x128
  bcast_S_S4096x4x128 : S_.BroadcastsInDim S4096x4x128 (![] : Fin 0 → Fin S4096x4x128.rank)
  reducesTo_S4096x4x128_S4096x4_d2 : S4096x4x128.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x128_0_1_2 : S4096x4x1.BroadcastsInDim S4096x4x128 (![0, 1, 2] : Fin 3 → Fin S4096x4x128.rank)
  bcast_S128_S1x1x128_2 : S128.BroadcastsInDim S1x1x128 (![2] : Fin 1 → Fin S1x1x128.rank)
  bcast_S1x1x128_S4096x4x128_0_1_2 : S1x1x128.BroadcastsInDim S4096x4x128 (![0, 1, 2] : Fin 3 → Fin S4096x4x128.rank)
  dot_S4096x4096_S4096x512_S4096x512_1_0_0_1_n_n_wf : DotDims.WF S4096x4096 S4096x512 S4096x512 [1] [0] [0] [1] [] []
  dot_S16384x128_S128x128_S16384x128_1_0_0_1_n_n_wf : DotDims.WF S16384x128 S128x128 S16384x128 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.LayerSpec.lean ====
/-
  The function both programs compute, on the extended reals, index by index.

  For a node n, a modality mm and a feature e, with A the dense adjacency, X the node features and W the
  projection:  the graph-mixed feature is  (A · X · W)(n, mm, e); the pre-normalisation value is
  v(e) = X(n, mm, e) + 0.05 · (A · X · W)(n, mm, e); and the result is the layer normalisation of the row v over
  its 128 features, scaled by gamma and shifted by beta.

  Two arrangements of the triple product are stated (the projection applied to every node first and the
  neighbourhood sum second, or the other way round), and two arrangements of the normalisation (a product
  with the reciprocal square root, or a quotient by the square root).  They agree on real entries; that is
  proved in LayerAlgebra.lean.
-/
import Idealize.ShloMosaic.PureOps.Ideal
import Idealize.ShloMosaic.Lib.ValueIdx

noncomputable section

namespace Cert.LayerSpec

open Idealize.ShloMosaic Idealize.ShloMosaic.ValueIdx

/-- The mixing weight 0.05, as the binary32 value both programs spell. -/
abbrev mixWeight : EReal := Ideal.ofBits .f32 0x3D4CCCCD#32
/-- The variance floor 1e-5, as the binary32 value both programs spell. -/
abbrev varFloor : EReal := Ideal.ofBits .f32 0x3727C5AC#32
/-- The row width 128 as a float. -/
abbrev rowWidth : EReal := Ideal.ofBits .f32 0x43000000#32

/-- Mean of a row of 128 entries. -/
def rowMean (v : Fin 128 → EReal) : EReal := Ideal.div (∑ e, v e) rowWidth
/-- A row less its mean. -/
def centred (v : Fin 128 → EReal) (e : Fin 128) : EReal := v e - rowMean v
/-- The (biased) variance of a row. -/
def rowVar (v : Fin 128 → EReal) : EReal := Ideal.div (∑ e, centred v e * centred v e) rowWidth

/-- Layer normalisation, the centred entry times the reciprocal square root of variance + floor. -/
def normRsqrt (v g b : Fin 128 → EReal) (e : Fin 128) : EReal :=
  centred v e * Ideal.rsqrt (rowVar v + varFloor) * g e + b e
/-- Layer normalisation, the centred entry divided by the square root of variance + floor. -/
def normSqrt (v g b : Fin 128 → EReal) (e : Fin 128) : EReal :=
  Ideal.div (centred v e) (Ideal.sqrt (rowVar v + varFloor)) * g e + b e

/-- A · (X · W): every node projected first, then summed over the neighbourhood. -/
def mixProjectFirst (A : Fin 4096 → Fin 4096 → EReal) (X : Fin 4096 → Fin 4 → Fin 128 → EReal) (W : Fin 128 → Fin 128 → EReal)
    (n : Fin 4096) (mm : Fin 4) (e : Fin 128) : EReal :=
  ∑ j, A n j * ∑ d, X j mm d * W d e
/-- (A · X) · W: the neighbourhood sum first, the projection second. -/
def mixSumFirst (A : Fin 4096 → Fin 4096 → EReal) (X : Fin 4096 → Fin 4 → Fin 128 → EReal) (W : Fin 128 → Fin 128 → EReal)
    (n : Fin 4096) (mm : Fin 4) (e : Fin 128) : EReal :=
  ∑ d, (∑ j, A n j * X j mm d) * W d e

/-- The arrays as functions of their coordinates. -/
abbrev feat (x : (⟨3, ![4096, 4, 128]⟩ : Shape).Idx → EReal) : Fin 4096 → Fin 4 → Fin 128 → EReal := fun n mm e => x (ix3 n mm e)
abbrev mat {a b : Nat} (x : (⟨2, ![a, b]⟩ : Shape).Idx → EReal) : Fin a → Fin b → EReal := fun p q => x (ix2 p q)
abbrev vec {a : Nat} (x : (⟨1, ![a]⟩ : Shape).Idx → EReal) : Fin a → EReal := fun p => x (ix1 p)

/-- The result at (n, mm, e), in the arrangement "project first, reciprocal square root". -/
def layerAt (x : (⟨3, ![4096, 4, 128]⟩ : Shape).Idx → EReal) (a : (⟨2, ![4096, 4096]⟩ : Shape).Idx → EReal)
    (w : (⟨2, ![128, 128]⟩ : Shape).Idx → EReal) (g b : (⟨1, ![128]⟩ : Shape).Idx → EReal)
    (n : Fin 4096) (mm : Fin 4) (e : Fin 128) : EReal :=
  normRsqrt (fun e' => feat x n mm e' + mixWeight * mixProjectFirst (mat a) (feat x) (mat w) n mm e') (vec g) (vec b) e

/-- The result at (n, mm, e), in the arrangement "sum first, quotient by the square root". -/
def layerAtRef (x : (⟨3, ![4096, 4, 128]⟩ : Shape).Idx → EReal) (a : (⟨2, ![4096, 4096]⟩ : Shape).Idx → EReal)
    (w : (⟨2, ![128, 128]⟩ : Shape).Idx → EReal) (g b : (⟨1, ![128]⟩ : Shape).Idx → EReal)
    (n : Fin 4096) (mm : Fin 4) (e : Fin 128) : EReal :=
  normSqrt (fun e' => feat x n mm e' + mixWeight * mixSumFirst (mat a) (feat x) (mat w) n mm e') (vec g) (vec b) e

/-- The whole result array. -/
def layer (x : (⟨3, ![4096, 4, 128]⟩ : Shape).Idx → EReal) (a : (⟨2, ![4096, 4096]⟩ : Shape).Idx → EReal)
    (w : (⟨2, ![128, 128]⟩ : Shape).Idx → EReal) (g b : (⟨1, ![128]⟩ : Shape).Idx → EReal) :
    (⟨3, ![4096, 4, 128]⟩ : Shape).Idx → EReal :=
  fun i => layerAt x a w g b (i 0) (i 1) (i 2)

theorem layer_ix3 (x : (⟨3, ![4096, 4, 128]⟩ : Shape).Idx → EReal) (a : (⟨2, ![4096, 4096]⟩ : Shape).Idx → EReal)
    (w : (⟨2, ![128, 128]⟩ : Shape).Idx → EReal) (g b : (⟨1, ![128]⟩ : Shape).Idx → EReal)
    (n : Fin 4096) (mm : Fin 4) (e : Fin 128) : layer x a w g b (ix3 n mm e) = layerAt x a w g b n mm e := rfl

/-- An entry is a real number (neither infinity). -/
def IsReal (x : EReal) : Prop := ∃ r : ℝ, x = (r : EReal)

end Cert.LayerSpec

end
-- ==== Proof.RefTerm.lean ====
/-
  The reference program's result as one pure term of its five arguments, in named stages.

  The stages follow the program line by line: the node features flattened to a matrix, the product with the
  adjacency, the rows regrouped, the product with the projection, the result regrouped to (node, modality,
  feature); the pre-normalisation value x + 0.05 · (that); the row mean; the row variance as the program's
  variance function computes it (the centred square summed and divided by the count 128 − 0, selected against a
  not-a-number filler by the test "count > 0"); and the normalisation, a quotient by the square root of
  variance + floor, scaled by gamma and shifted by beta.
-/
import proofs.«178782_g39178691674269_cont_8to1_b_350_2_alg».proof.ReferenceIdeal
import proofs.«178782_g39178691674269_cont_8to1_b_350_2_alg».proof.Proof.LayerSpec

noncomputable section

namespace Cert.ReferenceIdeal.RefValue

open Cert.ReferenceIdeal Idealize.ShloMosaic
open Cert.ReferenceIdeal.Facts₀

variable {F : FTy → Type} [FloatOps F] [Facts]

/-- The node features as a matrix [4096, 512]: column mm · 128 + e holds feature e of modality mm. -/
def xFlat (x : FVec F S4096x4x128 .f32) : FVec F S4096x512 .f32 :=
  shapeCast S4096x512 x shapeCasts_S4096x4x128_S4096x512

/-- A · X as a matrix [4096, 512]. -/
def ax (x : FVec F S4096x4x128 .f32) (a : FVec F S4096x4096 .f32) : FVec F S4096x512 .f32 :=
  Host.dotGeneral dot_S4096x4096_S4096x512_S4096x512_1_0_0_1_n_n none a (xFlat x)

/-- A · X with one row per (node, modality): row n · 4 + mm. -/
def axRows (x : FVec F S4096x4x128 .f32) (a : FVec F S4096x4096 .f32) : FVec F S16384x128 .f32 :=
  shapeCast S16384x128 (ax x a) shapeCasts_S4096x512_S16384x128

/-- (A · X) · W, one row per (node, modality). -/
def axw (x : FVec F S4096x4x128 .f32) (a : FVec F S4096x4096 .f32) (w : FVec F S128x128 .f32) : FVec F S16384x128 .f32 :=
  Host.dotGeneral dot_S16384x128_S128x128_S16384x128_1_0_0_1_n_n none (axRows x a) w

/-- (A · X) · W indexed by (node, modality, feature). -/
def mixed (x : FVec F S4096x4x128 .f32) (a : FVec F S4096x4096 .f32) (w : FVec F S128x128 .f32) : FVec F S4096x4x128 .f32 :=
  shapeCast S4096x4x128 (axw x a w) shapeCasts_S16384x128_S4096x4x128

/-- The pre-normalisation value x + 0.05 · (A · X) · W. -/
def pre (x : FVec F S4096x4x128 .f32) (a : FVec F S4096x4096 .f32) (w : FVec F S128x128 .f32) : FVec F S4096x4x128 .f32 :=
  addf x (mulf (broadcastInDim S4096x4x128 ![] bcast_S_S4096x4x128 (constant S_ .f32 0x3D4CCCCD#32)) (mixed x a w))

/-- A scalar spread over the column array [4096, 4, 1]. -/
def splatCol (c : FVec F S_ .f32) : FVec F S4096x4x1 .f32 :=
  broadcastInDim S4096x4x1 ![] bcast_S_S4096x4x1 c

/-- The sum of each row of 128 features (from the initial value 0), as a column array [4096, 4, 1]. -/
def rowSumCol (v : FVec F S4096x4x128 .f32) : FVec F S4096x4x1 .f32 :=
  broadcastInDim S4096x4x1 ![0, 1] bcast_S4096x4_S4096x4x1_0_1
    (Host.reduceAdd v (constant S_ .f32 0x00000000#32) reducesTo_S4096x4x128_S4096x4_d2 h_S_)

/-- The mean of each row: its sum divided by 128. -/
def meanCol (v : FVec F S4096x4x128 .f32) : FVec F S4096x4x1 .f32 :=
  Host.divf (rowSumCol v) (splatCol (constant S_ .f32 0x43000000#32))

/-- A column array [4096, 4, 1] repeated along the feature axis. -/
def spread (c : FVec F S4096x4x1 .f32) : FVec F S4096x4x128 .f32 :=
  broadcastInDim S4096x4x128 ![0, 1, 2] bcast_S4096x4x1_S4096x4x128_0_1_2 c

/-- Each entry less its row's mean. -/
def centredArr (v : FVec F S4096x4x128 .f32) : FVec F S4096x4x128 .f32 :=
  subf v (spread (meanCol v))

/-- The variance's divisor, 128 − 0 with the 0 an integer converted to a float. -/
def count : FVec F S_ .f32 :=
  subf (constant S_ .f32 0x43000000#32) (sitofp .f32 (constantI S_ 32 0#32))

/-- The variance of each row as the program's variance function computes it: the centred squares summed and
    divided by the count where the count is positive, a not-a-number filler otherwise. -/
def varCol (v : FVec F S4096x4x128 .f32) : FVec F S4096x4x1 .f32 :=
  select (broadcastInDim S4096x4x1 ![] bcast_S_S4096x4x1 (cmpf .ogt (count (F := F)) (constant S_ .f32 0x00000000#32)))
    (Host.divf (rowSumCol (mulf (centredArr v) (centredArr v))) (splatCol count))
    (splatCol (constant S_ .f32 0x7FC00000#32))

/-- A vector over the features repeated over every (node, modality). -/
def rowVec (g : FVec F S128 .f32) : FVec F S4096x4x128 .f32 :=
  broadcastInDim S4096x4x128 ![0, 1, 2] bcast_S1x1x128_S4096x4x128_0_1_2
    (broadcastInDim S1x1x128 ![2] bcast_S128_S1x1x128_2 g)

/-- The normalisation of the array v: centred, divided by the square root of variance + floor, scaled and shifted. -/
def normOf (v : FVec F S4096x4x128 .f32) (g b : FVec F S128 .f32) : FVec F S4096x4x128 .f32 :=
  addf (mulf (Host.divf (centredArr v)
      (spread (Host.sqrt (addf (varCol v) (splatCol (constant S_ .f32 0x3727C5AC#32)))))) (rowVec g)) (rowVec b)

/-- The reference program's result as a function of its arguments. -/
def refTerm (x : FVec F S4096x4x128 .f32) (a : FVec F S4096x4096 .f32) (w : FVec F S128x128 .f32) (g b : FVec F S128 .f32) :
    FVec F S4096x4x128 .f32 :=
  normOf (pre x a w) g b

end Cert.ReferenceIdeal.RefValue

end
-- ==== Proof.RefRun.lean ====
/-
  The reference program's run.  Its @main is a straight line of host operations once the two outlined functions
  (the variance, and inside it the selection against a filler) are unfolded at their calls: fifty-three operations,
  each writing one buffer of its own.  Every weakly fair execution terminates; the result buffer ends at the
  composed pure term of the arguments' launch contents (refTerm), and the arguments end unchanged.
-/
import proofs.«178782_g39178691674269_cont_8to1_b_350_2_alg».proof.Proof.Gen.ReferenceIdeal
import proofs.«178782_g39178691674269_cont_8to1_b_350_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- @main's operations in order, the variance function's twenty and its selection's three listed at the call
    over the call's own buffers. -/
abbrev ops : List (HloOp τ sig (Elt F)) :=
  [
    reshape main_arg0 main_v0 rfl shapeCasts_S4096x4x128_S4096x512,
    binary main_arg1 main_v0 main_v1 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    reshape main_v1 main_v2 rfl shapeCasts_S4096x512_S16384x128,
    binary main_v2 main_arg2 main_v3 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    reshape main_v3 main_v4 rfl shapeCasts_S16384x128_S4096x4x128,
    nullary main_cst (constant S_ .f32 0x3D4CCCCD#32),
    unary main_cst main_v5 (broadcastInDim S4096x4x128 ![] bcast_S_S4096x4x128 : (⟨S_, .f32⟩ : BufTy).Contents (Elt F) → (⟨S4096x4x128, .f32⟩ : BufTy).Contents (Elt F)),
    binary main_v5 main_v4 main_v6 (mulf : (⟨S4096x4x128, .f32⟩ : BufTy).Contents (Elt F) → (⟨S4096x4x128, .f32⟩ : BufTy).Contents (Elt F) → (⟨S4096x4x128, .f32⟩ : BufTy).Contents (Elt F)),
    binary main_arg0 main_v6 main_v7 (addf : (⟨S4096x4x128, .f32⟩ : BufTy).Contents (Elt F) → (⟨S4096x4x128, .f32⟩ : BufTy).Contents (Elt F) → (⟨S4096x4x128, .f32⟩ : BufTy).Contents (Elt F)),
    nullary main_cst_0 (constant S_ .f32 0x00000000#32),
    binary main_v7 main_cst_0 main_v8 ((fun x v => Host.reduceAdd x v reducesTo_S4096x4x128_S4096x4_d2 h_S_) : (⟨S4096x4x128, .f32⟩ : BufTy).Contents (Elt F) → (⟨S_, .f32⟩ : BufTy).Contents (Elt F) → (⟨S4096x4, .f32⟩ : BufTy).Contents (Elt F)),
    unary main_v8 main_v9 (broadcastInDim S4096x4x1 ![0, 1] bcast_S4096x4_S4096x4x1_0_1 : (⟨S4096x4, .f32⟩ : BufTy).Contents (Elt F) → (⟨S4096x4x1, .f32⟩ : BufTy).Contents (Elt F)),
    nullary main_cst_1 (constant S_ .f32 0x43000000#32),
    unary main_cst_1 main_v10 (broadcastInDim S4096x4x1 ![] bcast_S_S4096x4x1 : (⟨S_, .f32⟩ : BufTy).Contents (Elt F) → (⟨S4096x4x1, .f32⟩ : BufTy).Contents (Elt F)),
    binary main_v9 main_v10 main_v11 (Host.divf : (⟨S4096x4x1, .f32⟩ : BufTy).Contents (Elt F) → (⟨S4096x4x1, .f32⟩ : BufTy).Contents (Elt F) → (⟨S4096x4x1, .f32⟩ : BufTy).Contents (Elt F)),
    nullary main_c (constantI S_ 32 0#32),
    TRef.nullary main_call0.cst (constant S_ .f32 0x00000000#32),
    TRef.binary (.of main_v7) main_call0.cst main_call0.v0 (fun x v => Host.reduceAdd x v reducesTo_S4096x4x128_S4096x4_d2 h_S_),
    TRef.unary main_call0.v0 main_call0.v1 (broadcastInDim S4096x4x1 ![0, 1] bcast_S4096x4_S4096x4x1_0_1),
    TRef.nullary main_call0.cst_0 (constant S_ .f32 0x43000000#32),
    TRef.unary main_call0.cst_0 main_call0.v2 (broadcastInDim S4096x4x1 ![] bcast_S_S4096x4x1),
    TRef.binary main_call0.v1 main_call0.v2 main_call0.v3 Host.divf,
    TRef.unary main_call0.v3 main_call0.v4 (broadcastInDim S4096x4x128 ![0, 1, 2] bcast_S4096x4x1_S4096x4x128_0_1_2),
    TRef.binary (.of main_v7) main_call0.v4 main_call0.v5 subf,
    TRef.binary main_call0.v5 main_call0.v5 main_call0.v6 mulf,
    TRef.unary (.of main_c) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x4x128_S4096x4_d2 h_S_),
    TRef.unary main_call0.v9 main_call0.v10 (broadcastInDim S4096x4x1 ![0, 1] bcast_S4096x4_S4096x4x1_0_1),
    TRef.unary main_call0.v8 main_call0.v11 (broadcastInDim S4096x4x1 ![] bcast_S_S4096x4x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0_call0.v0 id,
    TRef.unary main_call0_call0.v0 main_call0_call0.v1 (broadcastInDim S4096x4x1 ![] bcast_S_S4096x4x1),
    TRef.ternary main_call0.v13 main_call0.v12 main_call0_call0.v1 main_call0_call0.v2 (fun p a b => select (broadcastInDim S4096x4x1 ![] bcast_S_S4096x4x1 p) a b),
    unary main_v11 main_v13 (broadcastInDim S4096x4x128 ![0, 1, 2] bcast_S4096x4x1_S4096x4x128_0_1_2 : (⟨S4096x4x1, .f32⟩ : BufTy).Contents (Elt F) → (⟨S4096x4x128, .f32⟩ : BufTy).Contents (Elt F)),
    binary main_v7 main_v13 main_v14 (subf : (⟨S4096x4x128, .f32⟩ : BufTy).Contents (Elt F) → (⟨S4096x4x128, .f32⟩ : BufTy).Contents (Elt F) → (⟨S4096x4x128, .f32⟩ : BufTy).Contents (Elt F)),
    nullary main_cst_2 (constant S_ .f32 0x3727C5AC#32),
    unary main_cst_2 main_v15 (broadcastInDim S4096x4x1 ![] bcast_S_S4096x4x1 : (⟨S_, .f32⟩ : BufTy).Contents (Elt F) → (⟨S4096x4x1, .f32⟩ : BufTy).Contents (Elt F)),
    binary main_v12 main_v15 main_v16 (addf : (⟨S4096x4x1, .f32⟩ : BufTy).Contents (Elt F) → (⟨S4096x4x1, .f32⟩ : BufTy).Contents (Elt F) → (⟨S4096x4x1, .f32⟩ : BufTy).Contents (Elt F)),
    unary main_v16 main_v17 (Host.sqrt : (⟨S4096x4x1, .f32⟩ : BufTy).Contents (Elt F) → (⟨S4096x4x1, .f32⟩ : BufTy).Contents (Elt F)),
    unary main_v17 main_v18 (broadcastInDim S4096x4x128 ![0, 1, 2] bcast_S4096x4x1_S4096x4x128_0_1_2 : (⟨S4096x4x1, .f32⟩ : BufTy).Contents (Elt F) → (⟨S4096x4x128, .f32⟩ : BufTy).Contents (Elt F)),
    binary main_v14 main_v18 main_v19 (Host.divf : (⟨S4096x4x128, .f32⟩ : BufTy).Contents (Elt F) → (⟨S4096x4x128, .f32⟩ : BufTy).Contents (Elt F) → (⟨S4096x4x128, .f32⟩ : BufTy).Contents (Elt F)),
    unary main_arg3 main_v20 (broadcastInDim S1x1x128 ![2] bcast_S128_S1x1x128_2 : (⟨S128, .f32⟩ : BufTy).Contents (Elt F) → (⟨S1x1x128, .f32⟩ : BufTy).Contents (Elt F)),
    unary main_v20 main_v21 (broadcastInDim S4096x4x128 ![0, 1, 2] bcast_S1x1x128_S4096x4x128_0_1_2 : (⟨S1x1x128, .f32⟩ : BufTy).Contents (Elt F) → (⟨S4096x4x128, .f32⟩ : BufTy).Contents (Elt F)),
    binary main_v19 main_v21 main_v22 (mulf : (⟨S4096x4x128, .f32⟩ : BufTy).Contents (Elt F) → (⟨S4096x4x128, .f32⟩ : BufTy).Contents (Elt F) → (⟨S4096x4x128, .f32⟩ : BufTy).Contents (Elt F)),
    unary main_arg4 main_v23 (broadcastInDim S1x1x128 ![2] bcast_S128_S1x1x128_2 : (⟨S128, .f32⟩ : BufTy).Contents (Elt F) → (⟨S1x1x128, .f32⟩ : BufTy).Contents (Elt F)),
    unary main_v23 main_v24 (broadcastInDim S4096x4x128 ![0, 1, 2] bcast_S1x1x128_S4096x4x128_0_1_2 : (⟨S1x1x128, .f32⟩ : BufTy).Contents (Elt F) → (⟨S4096x4x128, .f32⟩ : BufTy).Contents (Elt F)),
    binary main_v22 main_v24 main_v25 (addf : (⟨S4096x4x128, .f32⟩ : BufTy).Contents (Elt F) → (⟨S4096x4x128, .f32⟩ : BufTy).Contents (Elt F) → (⟨S4096x4x128, .f32⟩ : BufTy).Contents (Elt F)) ]

-- fifty-three binds re-associated: the rewrite under the chain recurses once per statement
set_option maxRecDepth 2048 in
/-- @main is that straight line: the functions unfolded at their calls, both sides are one chain of steps once
    sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., reshape_bufs_sub .., binary_bufs_sub .., reshape_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The result buffer after the line, from any contents: the composed term of the arguments' contents.  Each
    operation's result at its own buffer is its function's value and at any other buffer what was there; what is
    left is the term of RefTerm.lean, its named stages unfolded. -/
theorem out_eq (V : Valuation τ sig (Elt F)) :
    after ops V (main_v25 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v25) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefValue

end
-- ==== Proof.LayerConsts.lean ====
/-
  The row width 128, spelt by both programs as the binary32 word 0x43000000, is the real number 128.
-/
import proofs.«178782_g39178691674269_cont_8to1_b_350_2_alg».proof.Proof.LayerSpec
import Idealize.ShloMosaic.PureOps.Ideal.Laws

noncomputable section

namespace Cert.LayerConsts

open Idealize.ShloMosaic

/-- The word 0x43000000 denotes 128. -/
theorem rowWidth_eq : Cert.LayerSpec.rowWidth = ((128 : ℝ) : EReal) := by
  simp [Ideal.ofBits, Ideal.ieee, -EReal.coe_mul]; norm_num

/-- 128 is positive. -/
theorem rowWidth_pos : (0 : EReal) < Cert.LayerSpec.rowWidth := by
  rw [rowWidth_eq]; exact_mod_cast (by norm_num : (0 : ℝ) < 128)

theorem rowWidth_ne_zero : Cert.LayerSpec.rowWidth ≠ 0 := rowWidth_pos.ne'

end Cert.LayerConsts

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.RefNorm.lean ====
/-
  The reference's normalisation read at an index.

  For an arbitrary array v over (node, modality, feature), the normalisation stage of the reference's term at
  (n, mm, e) is the layer normalisation, in the arrangement "quotient by the square root", of the row
  e' ↦ v(n, mm, e'): every broadcast reads one entry of its operand, every row sum is the initial value 0 plus
  the finite sum over the 128 features, the variance function's count 128 − 0 is 128, so its guard "count > 0"
  holds and the selection takes the quotient, never the filler.
-/
import proofs.«178782_g39178691674269_cont_8to1_b_350_2_alg».proof.Proof.RefTerm
import proofs.«178782_g39178691674269_cont_8to1_b_350_2_alg».proof.Proof.LayerConsts
import proofs.«178782_g39178691674269_cont_8to1_b_350_2_alg».proof.Proof.LibHostReads
import Idealize.ShloMosaic.PureOps.Ideal.Laws
import Idealize.ShloMosaic.Lib.Pipeline.Value
import Idealize.ShloMosaic.Lib.ValueIdx

noncomputable section

open scoped BigOperators

namespace Cert.ReferenceIdeal.RefValue

open Cert.ReferenceIdeal Idealize.ShloMosaic Idealize.ShloMosaic.ValueIdx
open Cert.ReferenceIdeal.Facts₀

variable [Facts]

/-- A scalar spread over the column array reads the scalar. -/
theorem splatCol_apply (c : FVec Ideal S_ .f32) (j : S4096x4x1.Idx) : splatCol c j = c ix0 :=
  Cert.LibHostReads.splat_apply _ c j

/-- A column array repeated along the features reads, at (n, mm, e), the column at (n, mm). -/
theorem spread_apply (c : FVec Ideal S4096x4x1 .f32) (n : Fin 4096) (mm : Fin 4) (e : Fin 128) :
    spread c (ix3 n mm e) = c (ix3 n mm (0 : Fin 1)) :=
  broadcastInDim_apply _ _ c (ix3 n mm e) (ix3 n mm (0 : Fin 1)) (fun a => match a with
    | ⟨0, _⟩ => by show n.val = if (4096 : Nat) = 1 then 0 else n.val; rw [if_neg (by decide)]
    | ⟨1, _⟩ => by show mm.val = if (4 : Nat) = 1 then 0 else mm.val; rw [if_neg (by decide)]
    | ⟨2, _⟩ => by show 0 = if (1 : Nat) = 1 then 0 else e.val; rw [if_pos rfl])

/-- A vector over the features repeated over every (node, modality) reads, at (n, mm, e), the vector at e. -/
theorem rowVec_apply (g : FVec Ideal S128 .f32) (n : Fin 4096) (mm : Fin 4) (e : Fin 128) :
    rowVec g (ix3 n mm e) = g (ix1 e) := by
  unfold rowVec
  rw [broadcastInDim_apply _ _ _ (ix3 n mm e) (ix3 (0 : Fin 1) (0 : Fin 1) e) (fun a => match a with
      | ⟨0, _⟩ => by show 0 = if (1 : Nat) = 1 then 0 else n.val; rw [if_pos rfl]
      | ⟨1, _⟩ => by show 0 = if (1 : Nat) = 1 then 0 else mm.val; rw [if_pos rfl]
      | ⟨2, _⟩ => by show e.val = if (128 : Nat) = 1 then 0 else e.val; rw [if_neg (by decide)]),
    broadcastInDim_apply _ _ g (ix3 (0 : Fin 1) (0 : Fin 1) e) (ix1 e) (fun a => match a with
      | ⟨0, _⟩ => by show e.val = if (128 : Nat) = 1 then 0 else e.val; rw [if_neg (by decide)])]

/-- The sum over the feature axis from an initial value, at (n, mm): the initial value plus the finite sum. -/
theorem reduceRow_apply (v : FVec Ideal S4096x4x128 .f32) (init : FVec Ideal S_ .f32) (n : Fin 4096) (mm : Fin 4) :
    Host.reduceAdd v init reducesTo_S4096x4x128_S4096x4_d2 h_S_ (ix2 n mm) = init ix0 + ∑ e : Fin 128, v (ix3 n mm e) := by
  have hR : S4096x4x128.Reduces [2] S4096x4 := by decide
  show Ideal.hostReduceAdd reducesTo_S4096x4x128_S4096x4_d2 v (init (Shape.Idx.first h_S_)) (ix2 n mm) = _
  rw [Ideal.hostReduceAdd_single _ hR, eq_ix0 (Shape.Idx.first h_S_)]
  refine congrArg (init ix0 + ·) (Finset.sum_congr rfl fun k _ => congrArg v ?_)
  funext a
  match a with
  | ⟨0, _⟩ => rfl
  | ⟨1, _⟩ => rfl
  | ⟨2, _⟩ => rfl

/-- The row sums as a column array: at (n, mm, ·) the finite sum of the row. -/
theorem rowSumCol_apply (v : FVec Ideal S4096x4x128 .f32) (n : Fin 4096) (mm : Fin 4) (z : Fin 1) :
    rowSumCol v (ix3 n mm z) = ∑ e : Fin 128, v (ix3 n mm e) := by
  unfold rowSumCol
  rw [broadcastInDim_apply _ _ _ (ix3 n mm z) (ix2 n mm) (fun a => match a with
      | ⟨0, _⟩ => by show n.val = if (4096 : Nat) = 1 then 0 else n.val; rw [if_neg (by decide)]
      | ⟨1, _⟩ => by show mm.val = if (4 : Nat) = 1 then 0 else mm.val; rw [if_neg (by decide)]),
    reduceRow_apply]
  show Ideal.ofBits .f32 0x00000000#32 + _ = _
  rw [Ideal.ofBits_zero_f32, zero_add]

/-- The mean column at (n, mm, ·) is the mean of the row. -/
theorem meanCol_apply (v : FVec Ideal S4096x4x128 .f32) (n : Fin 4096) (mm : Fin 4) (z : Fin 1) :
    meanCol v (ix3 n mm z) = Cert.LayerSpec.rowMean (fun e => v (ix3 n mm e)) := by
  show Ideal.div (rowSumCol v (ix3 n mm z)) (splatCol (F := Ideal) (constant S_ .f32 0x43000000#32) (ix3 n mm z)) = _
  rw [rowSumCol_apply, splatCol_apply]
  rfl

/-- The centred array at (n, mm, e) is the row's entry less the row's mean. -/
theorem centredArr_apply (v : FVec Ideal S4096x4x128 .f32) (n : Fin 4096) (mm : Fin 4) (e : Fin 128) :
    centredArr v (ix3 n mm e) = Cert.LayerSpec.centred (fun e' => v (ix3 n mm e')) e := by
  show v (ix3 n mm e) - spread (meanCol v) (ix3 n mm e) = _
  rw [spread_apply, meanCol_apply]
  rfl

/-- The variance's divisor 128 − 0 is the row width 128: the integer 0 converts to the real 0. -/
theorem count_apply (j : S_.Idx) : count (F := Ideal) j = Cert.LayerSpec.rowWidth := by
  show Ideal.ofBits .f32 0x43000000#32 - (((0#32 : BitVec 32).toInt : ℝ) : EReal) = _
  have h0 : (0#32 : BitVec 32).toInt = 0 := by decide
  rw [h0, Int.cast_zero, EReal.coe_zero, sub_zero]

/-- The variance function's guard "count > 0" holds. -/
theorem guard_apply (j : S_.Idx) :
    cmpf .ogt (count (F := Ideal)) (constant S_ .f32 0x00000000#32) j = 1#1 := by
  show Ideal.cmp .ogt (count (F := Ideal) j) (Ideal.ofBits .f32 0x00000000#32) = 1#1
  rw [count_apply, Ideal.ofBits_zero_f32]
  show BitVec.ofBool (decide ((0 : EReal) < Cert.LayerSpec.rowWidth)) = 1#1
  rw [decide_eq_true Cert.LayerConsts.rowWidth_pos]
  rfl

/-- The variance column at (n, mm, ·) is the variance of the row: the guard holds, so the selection takes the
    quotient of the centred squares' sum by the count. -/
theorem varCol_apply (v : FVec Ideal S4096x4x128 .f32) (n : Fin 4096) (mm : Fin 4) (z : Fin 1) :
    varCol v (ix3 n mm z) = Cert.LayerSpec.rowVar (fun e => v (ix3 n mm e)) := by
  show Scalar.select
      (broadcastInDim S4096x4x1 ![] bcast_S_S4096x4x1 (cmpf .ogt (count (F := Ideal)) (constant S_ .f32 0x00000000#32)) (ix3 n mm z))
      (Ideal.div (rowSumCol (mulf (centredArr v) (centredArr v)) (ix3 n mm z)) (splatCol (F := Ideal) count (ix3 n mm z)))
      (splatCol (F := Ideal) (constant S_ .f32 0x7FC00000#32) (ix3 n mm z)) = _
  rw [Cert.LibHostReads.splat_apply, guard_apply, select_one, rowSumCol_apply, splatCol_apply, count_apply]
  show Ideal.div (∑ e : Fin 128, centredArr v (ix3 n mm e) * centredArr v (ix3 n mm e)) _ = _
  simp only [centredArr_apply]
  rfl

/-- THE NORMALISATION READ AT (n, mm, e): the layer normalisation of the row of v at (n, mm), in the arrangement
    "quotient by the square root", scaled by gamma and shifted by beta. -/
theorem normOf_apply (v : FVec Ideal S4096x4x128 .f32) (g b : FVec Ideal S128 .f32) (n : Fin 4096) (mm : Fin 4) (e : Fin 128) :
    normOf v g b (ix3 n mm e)
      = Cert.LayerSpec.normSqrt (fun e' => v (ix3 n mm e')) (Cert.LayerSpec.vec g) (Cert.LayerSpec.vec b) e := by
  show Ideal.div (centredArr v (ix3 n mm e))
        (spread (Host.sqrt (addf (varCol v) (splatCol (F := Ideal) (constant S_ .f32 0x3727C5AC#32)))) (ix3 n mm e))
      * rowVec g (ix3 n mm e) + rowVec b (ix3 n mm e) = _
  rw [spread_apply, rowVec_apply, rowVec_apply, centredArr_apply]
  show Ideal.div _ (Ideal.sqrt (varCol v (ix3 n mm (0 : Fin 1)) + splatCol (F := Ideal) (constant S_ .f32 0x3727C5AC#32) (ix3 n mm (0 : Fin 1))))
      * _ + _ = _
  rw [varCol_apply, splatCol_apply]
  rfl

end Cert.ReferenceIdeal.RefValue

end
-- ==== Proof.RefMix.lean ====
/-
  The reference's pre-normalisation value read at an index.

  The reference flattens the node features to a matrix [4096, 512] (column mm · 128 + d holds feature d of
  modality mm), multiplies by the adjacency, regroups the product to one row per (node, modality) (row n · 4 + mm),
  multiplies by the projection and regroups to (node, modality, feature).  Each regrouping keeps the row-major
  position, and (n · 4 + mm) · 128 + d = n · 512 + (mm · 128 + d); each product read at an entry is the sum over its
  contracted coordinate.  So the entry (n, mm, e) of the result is
  x(n, mm, e) + 0.05 · Σ_d (Σ_j A(n, j) · x(j, mm, d)) · W(d, e):  the neighbourhood sum first, the projection second.
-/
import proofs.«178782_g39178691674269_cont_8to1_b_350_2_alg».proof.Proof.RefTerm
import proofs.«178782_g39178691674269_cont_8to1_b_350_2_alg».proof.Proof.LayerSpec
import Idealize.ShloMosaic.Lib.StackMember
import Idealize.ShloMosaic.Lib.Pipeline.Value
import Idealize.ShloMosaic.Lib.ValueIdx

noncomputable section

open scoped BigOperators

namespace Cert.ReferenceIdeal.RefValue

open Cert.ReferenceIdeal Idealize.ShloMosaic Idealize.ShloMosaic.ValueIdx
open Cert.ReferenceIdeal.Facts₀

variable [Facts]

/-- The column mm · 128 + d of the flattened features. -/
abbrev flatCol (mm : Fin 4) (d : Fin 128) : Fin 512 := ⟨mm.val * 128 + d.val, by omega⟩
/-- The row n · 4 + mm of the regrouped product. -/
abbrev groupRow (n : Fin 4096) (mm : Fin 4) : Fin 16384 := ⟨n.val * 4 + mm.val, by omega⟩

/-- The flattened features at (n, mm · 128 + d) are the features at (n, mm, d). -/
theorem xFlat_apply (x : FVec Ideal S4096x4x128 .f32) (n : Fin 4096) (mm : Fin 4) (d : Fin 128) :
    xFlat x (ix2 n (flatCol mm d)) = x (ix3 n mm d) := by
  unfold xFlat
  refine shapeCast_apply x _ _ (ix3 n mm d) ?_
  rw [Shape.rowMajor_val_three, Shape.rowMajor_val_two]
  show (n.val * 4 + mm.val) * 128 + d.val = n.val * 512 + (mm.val * 128 + d.val)
  omega

/-- A · X at (n, c): the sum over the neighbours. -/
theorem ax_apply (x : FVec Ideal S4096x4x128 .f32) (a : FVec Ideal S4096x4096 .f32) (n : Fin 4096) (c : Fin 512) :
    ax x a (ix2 n c) = ∑ j : Fin 4096, a (ix2 n j) * xFlat x (ix2 j c) := by
  unfold ax
  have hD : dot_S4096x4096_S4096x512_S4096x512_1_0_0_1_n_n = DotDims.plain 4096 4096 512 := rfl
  rw [hD]
  exact StackMember.dotGeneral_plain_apply none a (xFlat x) n c

/-- The regrouped product at (n · 4 + mm, d) is A · X at (n, mm · 128 + d). -/
theorem axRows_apply (x : FVec Ideal S4096x4x128 .f32) (a : FVec Ideal S4096x4096 .f32)
    (n : Fin 4096) (mm : Fin 4) (d : Fin 128) :
    axRows x a (ix2 (groupRow n mm) d) = ax x a (ix2 n (flatCol mm d)) := by
  unfold axRows
  refine shapeCast_apply (ax x a) _ _ (ix2 n (flatCol mm d)) ?_
  rw [Shape.rowMajor_val_two, Shape.rowMajor_val_two]
  show n.val * 512 + (mm.val * 128 + d.val) = (n.val * 4 + mm.val) * 128 + d.val
  omega

/-- (A · X) · W at (r, e): the sum over the features. -/
theorem axw_apply (x : FVec Ideal S4096x4x128 .f32) (a : FVec Ideal S4096x4096 .f32) (w : FVec Ideal S128x128 .f32)
    (r : Fin 16384) (e : Fin 128) :
    axw x a w (ix2 r e) = ∑ d : Fin 128, axRows x a (ix2 r d) * w (ix2 d e) := by
  unfold axw
  have hD : dot_S16384x128_S128x128_S16384x128_1_0_0_1_n_n = DotDims.plain 16384 128 128 := rfl
  rw [hD]
  exact StackMember.dotGeneral_plain_apply none (axRows x a) w r e

/-- The result regrouped at (n, mm, e) is (A · X) · W at (n · 4 + mm, e). -/
theorem mixed_apply (x : FVec Ideal S4096x4x128 .f32) (a : FVec Ideal S4096x4096 .f32) (w : FVec Ideal S128x128 .f32)
    (n : Fin 4096) (mm : Fin 4) (e : Fin 128) :
    mixed x a w (ix3 n mm e) = axw x a w (ix2 (groupRow n mm) e) := by
  unfold mixed
  refine shapeCast_apply (axw x a w) _ _ (ix2 (groupRow n mm) e) ?_
  rw [Shape.rowMajor_val_three, Shape.rowMajor_val_two]
  show (n.val * 4 + mm.val) * 128 + e.val = (n.val * 4 + mm.val) * 128 + e.val
  rfl

/-- The graph-mixed feature at (n, mm, e): the neighbourhood sum first, the projection second. -/
theorem mixed_eq_mixSumFirst (x : FVec Ideal S4096x4x128 .f32) (a : FVec Ideal S4096x4096 .f32) (w : FVec Ideal S128x128 .f32)
    (n : Fin 4096) (mm : Fin 4) (e : Fin 128) :
    mixed x a w (ix3 n mm e)
      = Cert.LayerSpec.mixSumFirst (Cert.LayerSpec.mat a) (Cert.LayerSpec.feat x) (Cert.LayerSpec.mat w) n mm e := by
  rw [mixed_apply, axw_apply]
  unfold Cert.LayerSpec.mixSumFirst
  refine Finset.sum_congr rfl fun d _ => ?_
  rw [axRows_apply, ax_apply]
  congr 1
  refine Finset.sum_congr rfl fun j _ => ?_
  rw [xFlat_apply]

/-- The pre-normalisation value at (n, mm, e). -/
theorem pre_apply (x : FVec Ideal S4096x4x128 .f32) (a : FVec Ideal S4096x4096 .f32) (w : FVec Ideal S128x128 .f32)
    (n : Fin 4096) (mm : Fin 4) (e : Fin 128) :
    pre x a w (ix3 n mm e)
      = Cert.LayerSpec.feat x n mm e + Cert.LayerSpec.mixWeight
          * Cert.LayerSpec.mixSumFirst (Cert.LayerSpec.mat a) (Cert.LayerSpec.feat x) (Cert.LayerSpec.mat w) n mm e := by
  rw [← mixed_eq_mixSumFirst]
  rfl

end Cert.ReferenceIdeal.RefValue

end
-- ==== Proof.RefValue.lean ====
/-
  The reference's term read at an index: at (n, mm, e) it is the layer specification's value in the reference's own
  arrangement — the neighbourhood sum first and the projection second, the normalisation a quotient by the square
  root.  The normalisation stage read at an index (for any array) meets the pre-normalisation stage read at each
  entry of the row.
-/
import proofs.«178782_g39178691674269_cont_8to1_b_350_2_alg».proof.Proof.RefNorm
import proofs.«178782_g39178691674269_cont_8to1_b_350_2_alg».proof.Proof.RefMix

noncomputable section

namespace Cert.ReferenceIdeal.RefValue

open Cert.ReferenceIdeal Idealize.ShloMosaic Idealize.ShloMosaic.ValueIdx

variable [Facts]

/-- THE REFERENCE'S TERM AT (n, mm, e). No finiteness is needed: the specification's second arrangement is the
    reference's own. -/
theorem refTerm_apply (x : FVec Ideal S4096x4x128 .f32) (a : FVec Ideal S4096x4096 .f32) (w : FVec Ideal S128x128 .f32)
    (g b : FVec Ideal S128 .f32) (n : Fin 4096) (mm : Fin 4) (e : Fin 128) :
    refTerm x a w g b (ix3 n mm e) = Cert.LayerSpec.layerAtRef x a w g b n mm e :=
  (normOf_apply (pre x a w) g b n mm e).trans
    (congrArg (fun r => Cert.LayerSpec.normSqrt r (Cert.LayerSpec.vec g) (Cert.LayerSpec.vec b) e)
      (funext fun e' => pre_apply x a w n mm e'))

end Cert.ReferenceIdeal.RefValue

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibChainAssoc.lean ====
/-
  Reassociating a chain of two matrix products on the extended reals.

  (A·G)·Bᵀ and A·(G·Bᵀ) are the same matrix when every entry is a real number: entry by entry both are the double sum
  Σ_j Σ_k A(r,j)·G(j,k)·B(c,k).  On the extended reals this needs the entries real — a product distributes over a sum only
  away from the infinities — and with real entries it is the identity in ℝ carried across the coercion.
-/
import proofs.«178782_g39178691674269_cont_8to1_b_350_2_alg».proof.Proof.LibRealClosed

noncomputable section

open scoped BigOperators

namespace Cert.LibChainAssoc

open Cert.LibRealClosed

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries, Σ_k (Σ_j a_j·g_jk)·b_k = Σ_j a_j·(Σ_k g_jk·b_k): one row of (A·G)·Bᵀ against A·(G·Bᵀ). -/
theorem sum_chain_assoc {J K : Type*} [Fintype J] [Fintype K] (a : J → EReal) (g : J → K → EReal) (b : K → EReal)
    (ha : ∀ j, IsReal (a j)) (hg : ∀ j k, IsReal (g j k)) (hb : ∀ k, IsReal (b k)) :
    ∑ k, (∑ j, a j * g j k) * b k = ∑ j, a j * ∑ k, g j k * b k := by
  choose a' ha' using ha
  choose g' hg' using hg
  choose b' hb' using hb
  have hL : ∑ k, (∑ j, a j * g j k) * b k = ((∑ k, (∑ j, a' j * g' j k) * b' k : ℝ) : EReal) := by
    rw [coe_sum]
    refine Finset.sum_congr rfl fun k _ => ?_
    rw [EReal.coe_mul, coe_sum, hb']
    congr 1
    refine Finset.sum_congr rfl fun j _ => ?_
    rw [EReal.coe_mul, ha', hg']
  have hR : ∑ j, a j * ∑ k, g j k * b k = ((∑ j, a' j * ∑ k, g' j k * b' k : ℝ) : EReal) := by
    rw [coe_sum]
    refine Finset.sum_congr rfl fun j _ => ?_
    rw [EReal.coe_mul, coe_sum, ha']
    congr 1
    refine Finset.sum_congr rfl fun k _ => ?_
    rw [EReal.coe_mul, hg', hb']
  rw [hL, hR]
  congr 1
  simp only [Finset.sum_mul, Finset.mul_sum]
  rw [Finset.sum_comm]
  exact Finset.sum_congr rfl fun j _ => Finset.sum_congr rfl fun k _ => mul_assoc _ _ _

end Cert.LibChainAssoc

end
-- ==== Proof.LayerAlgebra.lean ====
/-
  The two arrangements of the layer agree on real entries.

  Three facts are used.  (1) With real entries the triple product A · X · W does not depend on the order of
  the two sums: entry by entry both arrangements are the double sum of A(n,j) · X(j,mm,d) · W(d,e).
  (2) The pre-normalisation row is then a row of real numbers, so its mean, its centred entries and its
  variance are real, the variance is not negative, and the variance plus the (positive) floor is a positive real
  number s.  (3) For a positive real s the square root of s is a real number other than zero whose reciprocal is
  the reciprocal square root of s, so a quotient by the square root is the product with the reciprocal square
  root, whatever extended real is divided.  Gamma and beta enter both arrangements in the same way and need no
  hypothesis.
-/
import proofs.«178782_g39178691674269_cont_8to1_b_350_2_alg».proof.Proof.LayerSpec
import proofs.«178782_g39178691674269_cont_8to1_b_350_2_alg».proof.Proof.LibRealClosed
import proofs.«178782_g39178691674269_cont_8to1_b_350_2_alg».proof.Proof.LibChainAssoc
import Idealize.ShloMosaic.PureOps.Ideal.Laws

noncomputable section

open scoped BigOperators

namespace Cert.LayerSpec

open Idealize.ShloMosaic Idealize.ShloMosaic.ValueIdx

/-- The two spellings of "is a real number" are the same proposition. -/
theorem isReal_iff (x : EReal) : IsReal x ↔ Cert.LibRealClosed.IsReal x := Iff.rfl

/-! ### The three constants -/

/-- 128.0 denotes the real number 128. -/
theorem rowWidth_eq : rowWidth = ((128 : ℝ) : EReal) := by
  simp [rowWidth, Ideal.ofBits, Ideal.ieee, -EReal.coe_mul]; norm_num

/-- The mixing weight is a real number: 13421773 · 2⁻²⁸. -/
theorem mixWeight_eq : mixWeight = ((13421773 * (2 : ℝ) ^ (-28 : Int) : ℝ) : EReal) := by
  simp [mixWeight, Ideal.ofBits, Ideal.ieee, -EReal.coe_mul]

theorem mixWeight_real : IsReal mixWeight := ⟨_, mixWeight_eq⟩

/-- The variance floor is a real number: 10995116 · 2⁻⁴⁰. -/
theorem varFloor_eq : varFloor = ((10995116 * (2 : ℝ) ^ (-40 : Int) : ℝ) : EReal) := by
  simp [varFloor, Ideal.ofBits, Ideal.ieee, -EReal.coe_mul]

/-- The variance floor is a positive real number. -/
theorem varFloor_pos : ∃ r : ℝ, 0 < r ∧ varFloor = (r : EReal) :=
  ⟨_, by positivity, varFloor_eq⟩

/-! ### A row of reals: mean, centred entries, variance -/

/-- The mean of a row of reals is the real mean. -/
theorem rowMean_coe (v : Fin 128 → ℝ) :
    rowMean (fun e => (v e : EReal)) = (((∑ e, v e) * (1 / 128) : ℝ) : EReal) := by
  unfold rowMean
  rw [rowWidth_eq, Ideal.div_coe (by norm_num), ← Cert.LibChainAssoc.coe_sum, ← EReal.coe_mul]

/-- A centred entry of a row of reals is the real centred entry. -/
theorem centred_coe (v : Fin 128 → ℝ) (e : Fin 128) :
    centred (fun e => (v e : EReal)) e = ((v e - (∑ e, v e) * (1 / 128) : ℝ) : EReal) := by
  unfold centred
  rw [rowMean_coe, ← EReal.coe_sub]

/-- The variance of a row of reals is the real variance. -/
theorem rowVar_coe (v : Fin 128 → ℝ) :
    rowVar (fun e => (v e : EReal))
      = (((∑ e, (v e - (∑ e, v e) * (1 / 128)) * (v e - (∑ e, v e) * (1 / 128))) * (1 / 128) : ℝ) : EReal) := by
  unfold rowVar
  rw [rowWidth_eq, Ideal.div_coe (by norm_num), EReal.coe_mul, Cert.LibChainAssoc.coe_sum]
  congr 1
  refine Finset.sum_congr rfl fun e _ => ?_
  rw [centred_coe, ← EReal.coe_mul]

/-- The variance of a row of reals plus the floor is a positive real number. -/
theorem rowVar_add_floor_pos (v : Fin 128 → EReal) (hv : ∀ e, IsReal (v e)) :
    ∃ s : ℝ, 0 < s ∧ rowVar v + varFloor = (s : EReal) := by
  choose v' hv' using hv
  obtain rfl : v = fun e => (v' e : EReal) := funext hv'
  obtain ⟨f, hf, hfe⟩ := varFloor_pos
  refine ⟨(∑ e, (v' e - (∑ e, v' e) * (1 / 128)) * (v' e - (∑ e, v' e) * (1 / 128))) * (1 / 128) + f, ?_, ?_⟩
  · have h0 : 0 ≤ ∑ e, (v' e - (∑ e, v' e) * (1 / 128)) * (v' e - (∑ e, v' e) * (1 / 128)) :=
      Finset.sum_nonneg fun e _ => mul_self_nonneg _
    have h1 : 0 ≤ (∑ e, (v' e - (∑ e, v' e) * (1 / 128)) * (v' e - (∑ e, v' e) * (1 / 128))) * (1 / 128) :=
      mul_nonneg h0 (by norm_num)
    linarith
  · rw [rowVar_coe, hfe, ← EReal.coe_add]

/-! ### Quotient by the square root against product with the reciprocal square root -/

/-- For a positive real s, dividing by the square root of s is multiplying by its reciprocal square root. -/
theorem div_sqrt_eq_mul_rsqrt {s : ℝ} (hs : 0 < s) (c : EReal) :
    Ideal.div c (Ideal.sqrt (s : EReal)) = c * Ideal.rsqrt (s : EReal) := by
  have hq : Real.sqrt s ≠ 0 := (Real.sqrt_pos.mpr hs).ne'
  rw [Ideal.sqrt_coe, Ideal.rsqrt_coe, if_neg (not_lt.mpr hs.le), if_neg (not_lt.mpr hs.le), if_neg hs.ne',
    Ideal.div_coe hq, one_div]

/-- The two arrangements of the normalisation agree on a row of reals. -/
theorem normSqrt_eq_normRsqrt (v g b : Fin 128 → EReal) (hv : ∀ e, IsReal (v e)) (e : Fin 128) :
    normSqrt v g b e = normRsqrt v g b e := by
  obtain ⟨s, hs, hse⟩ := rowVar_add_floor_pos v hv
  unfold normSqrt normRsqrt
  rw [hse, div_sqrt_eq_mul_rsqrt hs]

/-! ### The triple product -/

/-- With real entries the two arrangements of A · X · W agree. -/
theorem mixSumFirst_eq_mixProjectFirst (A : Fin 4096 → Fin 4096 → EReal) (X : Fin 4096 → Fin 4 → Fin 128 → EReal)
    (W : Fin 128 → Fin 128 → EReal) (hA : ∀ p q, IsReal (A p q)) (hX : ∀ p q r, IsReal (X p q r))
    (hW : ∀ p q, IsReal (W p q)) (n : Fin 4096) (mm : Fin 4) (e : Fin 128) :
    mixSumFirst A X W n mm e = mixProjectFirst A X W n mm e :=
  Cert.LibChainAssoc.sum_chain_assoc (A n) (fun j d => X j mm d) (fun d => W d e)
    (fun j => hA n j) (fun j d => hX j mm d) (fun d => hW d e)

/-- With real entries the graph-mixed feature is a real number. -/
theorem mixProjectFirst_real (A : Fin 4096 → Fin 4096 → EReal) (X : Fin 4096 → Fin 4 → Fin 128 → EReal)
    (W : Fin 128 → Fin 128 → EReal) (hA : ∀ p q, IsReal (A p q)) (hX : ∀ p q r, IsReal (X p q r))
    (hW : ∀ p q, IsReal (W p q)) (n : Fin 4096) (mm : Fin 4) (e : Fin 128) :
    IsReal (mixProjectFirst A X W n mm e) :=
  Cert.LibRealClosed.IsReal.sum _ _ fun j _ =>
    Cert.LibRealClosed.IsReal.mul (hA n j)
      (Cert.LibRealClosed.IsReal.sum _ _ fun d _ => Cert.LibRealClosed.IsReal.mul (hX j mm d) (hW d e))

/-! ### The layer -/

/-- On real inputs "sum first, quotient by the square root" is "project first, reciprocal square root". -/
theorem layerAtRef_eq_layerAt
    (x : (⟨3, ![4096, 4, 128]⟩ : Shape).Idx → EReal) (a : (⟨2, ![4096, 4096]⟩ : Shape).Idx → EReal)
    (w : (⟨2, ![128, 128]⟩ : Shape).Idx → EReal) (g b : (⟨1, ![128]⟩ : Shape).Idx → EReal)
    (hx : ∀ i, IsReal (x i)) (ha : ∀ i, IsReal (a i)) (hw : ∀ i, IsReal (w i))
    (n : Fin 4096) (mm : Fin 4) (e : Fin 128) :
    layerAtRef x a w g b n mm e = layerAt x a w g b n mm e := by
  have hA : ∀ p q, IsReal (mat a p q) := fun p q => ha _
  have hX : ∀ p q r, IsReal (feat x p q r) := fun p q r => hx _
  have hW : ∀ p q, IsReal (mat w p q) := fun p q => hw _
  have hrow : (fun e' => feat x n mm e' + mixWeight * mixSumFirst (mat a) (feat x) (mat w) n mm e')
      = fun e' => feat x n mm e' + mixWeight * mixProjectFirst (mat a) (feat x) (mat w) n mm e' :=
    funext fun e' => by rw [mixSumFirst_eq_mixProjectFirst _ _ _ hA hX hW]
  unfold layerAtRef layerAt
  rw [hrow]
  exact normSqrt_eq_normRsqrt _ _ _
    (fun e' => Cert.LibRealClosed.IsReal.add (hX n mm e')
      (Cert.LibRealClosed.IsReal.mul mixWeight_real (mixProjectFirst_real _ _ _ hA hX hW n mm e'))) e

end Cert.LayerSpec

end
-- ==== Proof.FiniteInputs.lean ====
/-
  From the precondition to "every entry of x, A and W is a real number".

  The precondition is the conjunction, over the five inputs, of "every entry has absolute value below +infinity".
  Each conjunct is a reduction by "and" of an array of one-bit comparisons; the reduction being 1 says that every
  comparison is 1, that is max(v, -v) < +infinity at every index, and an extended real whose absolute value is
  below +infinity is neither infinity: it is a real number.  Only the first three conjuncts are needed.
-/
import proofs.«178782_g39178691674269_cont_8to1_b_350_2_alg».proof.Pre_finite_inputs
import proofs.«178782_g39178691674269_cont_8to1_b_350_2_alg».proof.Proof.Gen.Pre_finite_inputs
import proofs.«178782_g39178691674269_cont_8to1_b_350_2_alg».proof.Proof.LayerSpec
import proofs.«178782_g39178691674269_cont_8to1_b_350_2_alg».proof.Proof.LibRealClosed
import Idealize.ShloMosaic.Lib.ReduceAll

noncomputable section

namespace Cert.FiniteInputs

open Idealize.ShloMosaic Idealize.ShloMosaic.ValueIdx

/-- The scalar shape has one index. -/
instance subsingleton_scalarIdx : Subsingleton Cert.Pre_finite_inputs.S_.Idx :=
  ⟨fun a b => funext fun d => d.elim0⟩

/-- The word 0x7F800000 denotes +infinity. -/
theorem ofBits_inf : Ideal.ofBits .f32 0x7F800000#32 = ⊤ := by
  simp [Ideal.ofBits, Ideal.ieee]

/-- One comparison "|v| < +infinity" that came out 1 says that v is a real number. -/
theorem isReal_of_cmp_abs_lt_inf (v : EReal)
    (e : Ideal.cmp .olt (max v (-v)) (Ideal.ofBits .f32 0x7F800000#32) = 1#1) : Cert.LayerSpec.IsReal v := by
  rw [ofBits_inf] at e
  unfold Ideal.cmp at e
  by_cases hlt : max v (-v) < ⊤
  · exact Cert.LibRealClosed.isReal_of_abs_lt_top hlt
  · simp [hlt] at e

/-- The array form: where the comparison of |x| with a broadcast +infinity is 1, the entry of x is real. -/
theorem isReal_of_olt_inf {s : Shape} (x : FVec Ideal s .f32)
    (hb : Cert.Pre_finite_inputs.S_.BroadcastsInDim s (![] : Fin 0 → Fin s.rank)) (i : s.Idx)
    (e : cmpf .olt (Host.absf x)
        (broadcastInDim s ![] hb (constant (F := Ideal) Cert.Pre_finite_inputs.S_ .f32 0x7F800000#32)) i = 1#1) :
    Cert.LayerSpec.IsReal (x i) :=
  isReal_of_cmp_abs_lt_inf (x i) e

/-- Under the precondition every entry of x, of A and of W is a real number. -/
theorem real_of_finite_inputs [Cert.Pre_finite_inputs.Facts]
    (x : FVec Ideal Cert.Pre_finite_inputs.S4096x4x128 .f32) (a : FVec Ideal Cert.Pre_finite_inputs.S4096x4096 .f32)
    (w : FVec Ideal Cert.Pre_finite_inputs.S128x128 .f32) (g b : FVec Ideal Cert.Pre_finite_inputs.S128 .f32)
    (h : Cert.Pre_finite_inputs.fn (F := Ideal) x a w g b = (fun _ => 1#1)) :
    (∀ i, Cert.LayerSpec.IsReal (x i)) ∧ (∀ i, Cert.LayerSpec.IsReal (a i)) ∧ (∀ i, Cert.LayerSpec.IsReal (w i)) := by
  have h0 := congrFun h ix0
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, hw⟩ := IntOp.andi_eq_one.1 h2
  obtain ⟨hx, ha⟩ := IntOp.andi_eq_one.1 h3
  refine ⟨fun i => ?_, fun i => ?_, fun i => ?_⟩
  · exact isReal_of_olt_inf x _ i (Host.reduce_andi_all _ _ _ _ _ hx i)
  · exact isReal_of_olt_inf a _ i (Host.reduce_andi_all _ _ _ _ _ ha i)
  · exact isReal_of_olt_inf w _ i (Host.reduce_andi_all _ _ _ _ _ hw i)

end Cert.FiniteInputs

end
-- ==== Proof.Bridge.lean ====
/-
  From the two runs to the equivalence claim.

  The kernel's run ends with its result array equal to the layer (the arrangement "project first, reciprocal
  square root") of its five argument arrays, and the reference's run ends with its result array equal to the
  reference's own term of its arguments, which index by index is the layer in the arrangement "sum first, quotient by
  the square root".  Under the precondition every entry of x, A and W is a real number, and on real entries the two
  arrangements are the same function; the memories agree on the arguments; so the two results are equal, and both
  runs leave the arguments unchanged.
-/
import proofs.«178782_g39178691674269_cont_8to1_b_350_2_alg».proof.Defs
import proofs.«178782_g39178691674269_cont_8to1_b_350_2_alg».proof.Proof.RefRun
import proofs.«178782_g39178691674269_cont_8to1_b_350_2_alg».proof.Proof.RefValue
import proofs.«178782_g39178691674269_cont_8to1_b_350_2_alg».proof.Proof.LayerAlgebra
import proofs.«178782_g39178691674269_cont_8to1_b_350_2_alg».proof.Proof.FiniteInputs

noncomputable section

namespace Cert.Proof.Bridge

open Idealize.ShloMosaic Idealize.ShloMosaic.ValueIdx Idealize.SL.Sem

/-- On real x, A and W the reference's term is the layer, as whole arrays. -/
theorem refTerm_eq_layer [Cert.ReferenceIdeal.Facts]
    (x : FVec Ideal Cert.ReferenceIdeal.S4096x4x128 .f32) (a : FVec Ideal Cert.ReferenceIdeal.S4096x4096 .f32)
    (w : FVec Ideal Cert.ReferenceIdeal.S128x128 .f32) (g b : FVec Ideal Cert.ReferenceIdeal.S128 .f32)
    (hx : ∀ i, Cert.LayerSpec.IsReal (x i)) (ha : ∀ i, Cert.LayerSpec.IsReal (a i)) (hw : ∀ i, Cert.LayerSpec.IsReal (w i)) :
    Cert.ReferenceIdeal.RefValue.refTerm x a w g b = Cert.LayerSpec.layer x a w g b := by
  funext i
  obtain ⟨n, mm, e, rfl⟩ : ∃ (n : Fin 4096) (mm : Fin 4) (e : Fin 128), i = ix3 n mm e := ⟨i 0, i 1, i 2, eq_ix3 i⟩
  rw [Cert.ReferenceIdeal.RefValue.refTerm_apply, Cert.LayerSpec.layer_ix3]
  exact Cert.LayerSpec.layerAtRef_eq_layerAt x a w g b hx ha hw n mm e

/-- The equivalence claim, given the kernel's run: the result is the layer of the arguments, the arguments unchanged. -/
theorem algebraic_of_kernelRun [hKernelIdeal : Cert.KernelIdeal.Facts] [hReferenceIdeal : Cert.ReferenceIdeal.Facts]
    [hPre_finite_inputs : Cert.Pre_finite_inputs.Facts]
    (hKrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c.tc : Thread Cert.KernelIdeal.nD Cert.KernelIdeal.τ).loc Cert.KernelIdeal.main_v0) = Cert.LayerSpec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :
    Cert.algebraic_KernelIdeal_ReferenceIdeal := by
  intro m ρ m' ρ' hpre hagree
  refine ⟨fun c => Cert.LayerSpec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), hKrun m ρ, ?_⟩
  refine (θ_run Cert.ReferenceIdeal.defs _ _).mono (fun _ h c => ⟨(h c).1.trans ?_, (h c).2⟩)
    (Cert.ReferenceIdeal.RefValue.run (F := Ideal) m' ρ')
  obtain ⟨hx, ha, hw⟩ := Cert.FiniteInputs.real_of_finite_inputs _ _ _ _ _ (hpre c)
  rw [(hagree c).1, (hagree c).2.1, (hagree c).2.2.1, (hagree c).2.2.2.1, (hagree c).2.2.2.2]
  exact refTerm_eq_layer _ _ _ _ _ hx ha hw

end Cert.Proof.Bridge

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibMidUnitAxis.lean ====
/-
  A shape cast that inserts or drops a unit axis in the MIDDLE of a matrix shape, read at an index:
  [a, b] -> [a, 1, b] and [a, 1, b] -> [a, b].  Row-major position (i·1 + u)·b + j = i·b + j for u = 0.
  Generic in the two extents and the element type.
-/
import Idealize.ShloMosaic.Lib.ValueLayout

namespace Idealize.ShloMosaic.ValueIdx

open Idealize.ShloMosaic

variable {α : Type}

/-- A matrix `[a, b]` cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An array `[a, 1, b]` cast to the matrix `[a, b]` reads, at `(i, j)`, the array at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.ValueIdx
-- ==== Proof.KernelTile.lean ====
/-
  One tile of the kernel's epilogue as one function.

  For each of the four modalities the kernel body takes a [256, 128] tile x of node features and the matching
  [256, 128] tile z of the graph-mixed features, forms v = x + 0.05 · z, and layer-normalises every row of v:
  the row mean (row sum / 128), the centred row c = v − mean, the variance (sum of c² / 128), then
  c · rsqrt(variance + 1e-5) · gamma + beta with gamma, beta rows of shape [1, 128].
  The four stores of the body are this one function of different tiles; read at (r, q) it is the
  specification's row normalisation of row r at feature q.
-/
import proofs.«178782_g39178691674269_cont_8to1_b_350_2_alg».proof.KernelIdeal
import proofs.«178782_g39178691674269_cont_8to1_b_350_2_alg».proof.Proof.Gen.KernelIdeal.Skeleton
import proofs.«178782_g39178691674269_cont_8to1_b_350_2_alg».proof.Proof.LayerSpec
import proofs.«178782_g39178691674269_cont_8to1_b_350_2_alg».proof.Proof.LibKeepdims
import proofs.«178782_g39178691674269_cont_8to1_b_350_2_alg».proof.Proof.LibMidUnitAxis
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.LayerSpec

variable {F : FTy → Type} [FloatOps F] [Facts]
open Facts₀ Facts

/-- v = x + 0.05 · z. -/
def mixedTile (x z : FVec F S256x128 .f32) : FVec F S256x128 .f32 :=
  addf x (mulf (broadcast S256x128 (Scalar.ofBits .f32 0x3D4CCCCD#32)) z)

/-- The column of row means, (row sum) / 128. -/
def meanCol (v : FVec F S256x128 .f32) : FVec F S256x1 .f32 :=
  divf (shapeCast S256x1 (multiReduction .add [1] S256 v 0x00000000#32 reduces_S256x128_S256 (.inl rfl) rfl) shapeCasts_S256_S256x1)
    (broadcast S256x1 (Scalar.ofBits .f32 0x43000000#32))

/-- c = v − mean, row by row. -/
def centredTile (v : FVec F S256x128 .f32) : FVec F S256x128 .f32 :=
  subf v (broadcastTo S256x128 (meanCol v) broadcasts_S256x1_S256x128)

/-- The column variance + 1e-5 of centred rows. -/
def spreadCol (c : FVec F S256x128 .f32) : FVec F S256x1 .f32 :=
  addf (meanCol (mulf c c)) (broadcast S256x1 (Scalar.ofBits .f32 0x3727C5AC#32))

/-- c · rsqrt(s) · gamma + beta. -/
def affineTile (c : FVec F S256x128 .f32) (s : FVec F S256x1 .f32) (g b : FVec F S1x128 .f32) : FVec F S256x128 .f32 :=
  addf (mulf (mulf c (broadcastTo S256x128 (rsqrt s) broadcasts_S256x1_S256x128)) (broadcastTo S256x128 g broadcasts_S1x128_S256x128))
    (broadcastTo S256x128 b broadcasts_S1x128_S256x128)

/-- The whole epilogue on one tile. -/
def normTile (x z : FVec F S256x128 .f32) (g b : FVec F S1x128 .f32) : FVec F S256x128 .f32 :=
  affineTile (centredTile (mixedTile x z)) (spreadCol (centredTile (mixedTile x z))) g b

/-! ## The body's four stores are this function -/

theorem store0_eq (v3 : Vec F S256x4096 .f32) (v5 : Vec F S4096x512 .bf16) (v7 v9 : Vec F S1x128 .f32) (v13 : Vec F S256x1x128 .f32) :
    Gen.k0_pay13 (Gen.k0_pay11 v3 v5 v7 v13) (Gen.k0_pay12 v9)
      = shapeCast S256x1x128 (normTile (shapeCast S256x128 v13 shapeCasts_S256x1x128_S256x128)
          (extractStridedSlice S256x128 ![0, 0] (Gen.k0_pay8 v3 v5) slices_S256x512_o0_0_S256x128) (Gen.k0_pay9 v7) (Gen.k0_pay10 v9)) shapeCasts_S256x128_S256x1x128 := rfl

theorem store1_eq (v6 : FVec F S256x512 .f32) (v8 v10 : FVec F S1x128 .f32) (v43 : Vec F S256x1x128 .f32) :
    Gen.k0_pay14 v6 v8 v10 v43
      = shapeCast S256x1x128 (normTile (shapeCast S256x128 v43 shapeCasts_S256x1x128_S256x128)
          (extractStridedSlice S256x128 ![0, 128] v6 slices_S256x512_o0_128_S256x128) v8 v10) shapeCasts_S256x128_S256x1x128 := rfl

theorem store2_eq (v6 : FVec F S256x512 .f32) (v8 v10 : FVec F S1x128 .f32) (v73 : Vec F S256x1x128 .f32) :
    Gen.k0_pay16 v8 v10 (Gen.k0_pay15 v6 v73)
      = shapeCast S256x1x128 (normTile (shapeCast S256x128 v73 shapeCasts_S256x1x128_S256x128)
          (extractStridedSlice S256x128 ![0, 256] v6 slices_S256x512_o0_256_S256x128) v8 v10) shapeCasts_S256x128_S256x1x128 := rfl

theorem store3_eq (v6 : FVec F S256x512 .f32) (v8 v10 : FVec F S1x128 .f32) (v103 : Vec F S256x1x128 .f32) :
    Gen.k0_pay1 v8 v10 (Gen.k0_pay17 v6 v103) (Gen.k0_pay18 v6 v103)
      = shapeCast S256x1x128 (normTile (shapeCast S256x128 v103 shapeCasts_S256x1x128_S256x128)
          (extractStridedSlice S256x128 ![0, 384] v6 slices_S256x512_o0_384_S256x128) v8 v10) shapeCasts_S256x128_S256x1x128 := rfl

/-! ## The tile read at an index, on the extended reals -/

theorem mixedTile_apply (x z : FVec Ideal S256x128 .f32) (j : S256x128.Idx) :
    mixedTile x z j = x j + mixWeight * z j := rfl

theorem meanCol_apply (v : FVec Ideal S256x128 .f32) (r : Fin 256) :
    meanCol v (ix2 r (0 : Fin 1)) = rowMean (fun e => v (ix2 r e)) := by
  unfold meanCol rowMean
  show Ideal.div (shapeCast S256x1 _ shapeCasts_S256_S256x1 (ix2 r (0 : Fin 1))) rowWidth = _
  refine congrArg (Ideal.div · rowWidth) ?_
  refine (shapeCast_a_a1_apply _ shapeCasts_S256_S256x1 r 0).trans ?_
  exact multiReduction_add_row v _ _ _ _ r

theorem centredTile_apply (v : FVec Ideal S256x128 .f32) (r : Fin 256) (q : Fin 128) :
    centredTile v (ix2 r q) = centred (fun e => v (ix2 r e)) q := by
  unfold centredTile centred
  show v (ix2 r q) - broadcastTo S256x128 (meanCol v) broadcasts_S256x1_S256x128 (ix2 r q) = _
  refine congrArg (v (ix2 r q) - ·) ?_
  exact (broadcastTo_a1_ab_apply _ broadcasts_S256x1_S256x128 r q).trans (meanCol_apply v r)

theorem spreadCol_apply (v : FVec Ideal S256x128 .f32) (r : Fin 256) :
    spreadCol (centredTile v) (ix2 r (0 : Fin 1)) = rowVar (fun e => v (ix2 r e)) + varFloor := by
  unfold spreadCol rowVar
  show meanCol (mulf (centredTile v) (centredTile v)) (ix2 r (0 : Fin 1)) + varFloor = _
  refine congrArg (· + varFloor) ?_
  refine (meanCol_apply _ r).trans ?_
  unfold rowMean
  refine congrArg (Ideal.div · rowWidth) (Finset.sum_congr rfl fun e _ => ?_)
  show centredTile v (ix2 r e) * centredTile v (ix2 r e) = _
  rw [centredTile_apply]

theorem normTile_apply (x z : FVec Ideal S256x128 .f32) (g b : FVec Ideal S1x128 .f32) (r : Fin 256) (q : Fin 128) :
    normTile x z g b (ix2 r q)
      = normRsqrt (fun e => x (ix2 r e) + mixWeight * z (ix2 r e)) (fun e => g (ix2 (0 : Fin 1) e)) (fun e => b (ix2 (0 : Fin 1) e)) q := by
  unfold normTile affineTile normRsqrt
  show centredTile (mixedTile x z) (ix2 r q)
        * broadcastTo S256x128 (rsqrt (spreadCol (centredTile (mixedTile x z)))) broadcasts_S256x1_S256x128 (ix2 r q)
        * broadcastTo S256x128 g broadcasts_S1x128_S256x128 (ix2 r q)
      + broadcastTo S256x128 b broadcasts_S1x128_S256x128 (ix2 r q) = _
  rw [broadcastTo_a1_ab_apply _ broadcasts_S256x1_S256x128 r q, broadcastTo_1b_ab_apply g broadcasts_S1x128_S256x128 r q,
    broadcastTo_1b_ab_apply b broadcasts_S1x128_S256x128 r q, centredTile_apply]
  show _ * Ideal.rsqrt (spreadCol (centredTile (mixedTile x z)) (ix2 r (0 : Fin 1))) * _ + _ = _
  rw [spreadCol_apply]
  rfl

end Cert.KernelIdeal.Tile

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibPlainFields.lean ====
/-
  A kernel's matrix product whose dimension record is ANY record with the plain lists — contract the left
  operand's last axis with the right operand's first, no batch axis — accumulated into the zero block: its entry
  (a, b) is the sum over c of A(a, c) · B(c, b) on the extended reals.  A program's printed record carries its own
  proof of well-formedness; only the six lists matter, and they are compared here, not the records.
  Generic in the three extents, the operand formats and the precision key.
-/
import proofs.«178782_g39178691674269_cont_8to1_b_350_2_alg».proof.Proof.LibPlainMatmul

noncomputable section

namespace Cert.LibPlainFields

open Idealize.ShloMosaic Idealize.ShloMosaic.ValueIdx

theorem matmul_plainFields_zero_apply {m k n : Nat} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact Cert.LibPlainMatmul.matmul_plain_zero_apply prec A B a b

end Cert.LibPlainFields

end
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.KernelProducts.lean ====
/-
  The kernel body's two matrix products and one epilogue store, read at an index on the extended reals.

  * The projection of one modality: a [4096, 1, 128] slab of node features, viewed [4096, 128], times the
    [128, 128] projection; entry (j, e) is Σ_d slab(j, 0, d) · W(d, e).  The four stores into the carried
    [4096, 512] scratch are this one function of the four slabs.
  * The neighbourhood sum: a [256, 4096] slab of adjacency rows times the [4096, 512] scratch; entry (r, k)
    is Σ_j A(r, j) · Y(j, k).
  * One epilogue store: the [256, 1, 128] value stored for a modality whose mixed features are the
    columns o … o+127 of the [256, 512] product.
  Changes of float format are the identity on the extended reals, so none appears in the sums.
-/
import proofs.«178782_g39178691674269_cont_8to1_b_350_2_alg».proof.Proof.KernelTile
import proofs.«178782_g39178691674269_cont_8to1_b_350_2_alg».proof.Proof.LibPlainFields
import proofs.«178782_g39178691674269_cont_8to1_b_350_2_alg».proof.Proof.LibRowForms

noncomputable section

namespace Cert.KernelIdeal.Tile

open Idealize.ShloMosaic Idealize.ShloMosaic.ValueIdx Cert.KernelIdeal Cert.LayerSpec

variable [Facts]
open Facts₀ Facts

/-- The four projection stores are one function of the loaded slab (the fourth is bound to a name before its cast; the value is the same). -/
theorem proj1_eq {F : FTy → Type} [FloatOps F] (w : Vec F S128x128 .f32) (s : Vec F S4096x1x128 .f32) : Gen.k0_pay4 w s = Gen.k0_pay3 w s := rfl
theorem proj2_eq {F : FTy → Type} [FloatOps F] (w : Vec F S128x128 .f32) (s : Vec F S4096x1x128 .f32) : Gen.k0_pay5 w s = Gen.k0_pay3 w s := rfl
theorem proj3_eq {F : FTy → Type} [FloatOps F] (w : Vec F S128x128 .f32) (s : Vec F S4096x1x128 .f32) :
    Gen.k0_pay7 (Gen.k0_pay6 w s) = Gen.k0_pay3 w s := rfl

/-- The projection of one slab at (j, e). -/
theorem proj_apply (w : Vec Ideal S128x128 .f32) (s : Vec Ideal S4096x1x128 .f32) (j : Fin 4096) (e : Fin 128) :
    Gen.k0_pay3 w s (ix2 j e) = ∑ d : Fin 128, s (ix3 j (0 : Fin 1) d) * w (ix2 d e) := by
  unfold Gen.k0_pay3 Gen.k0_pay2
  rw [shapeCast_self]
  refine (Cert.LibPlainFields.matmul_plainFields_zero_apply dot_S4096x128_S128x128_S4096x128_1_0_0_1_n_n rfl rfl rfl rfl rfl rfl none
    (truncf .bf16 (shapeCast S4096x128 s shapeCasts_S4096x1x128_S4096x128) bitsLt_bf16_f32) (truncf .bf16 w bitsLt_bf16_f32) j e).trans ?_
  exact Finset.sum_congr rfl fun d _ => congrArg (· * w (ix2 d e)) (shapeCast_a1b_ab_apply s shapeCasts_S4096x1x128_S4096x128 j d)

/-- The neighbourhood sum at (r, k). -/
theorem nbrSum_apply (a : Vec Ideal S256x4096 .f32) (y : Vec Ideal S4096x512 .bf16) (r : Fin 256) (k : Fin 512) :
    Gen.k0_pay8 a y (ix2 r k) = ∑ j : Fin 4096, a (ix2 r j) * y (ix2 j k) := by
  unfold Gen.k0_pay8
  exact Cert.LibPlainFields.matmul_plainFields_zero_apply dot_S256x4096_S4096x512_S256x512_1_0_0_1_n_n rfl rfl rfl rfl rfl rfl none
    (truncf .bf16 a bitsLt_bf16_f32) y r k

/-- One epilogue store at (r, u, q): the row normalisation of v(e) = X(r, 0, e) + 0.05 · Z(r, o + e). -/
theorem storeTile_apply (X : Vec Ideal S256x1x128 .f32) (Z : FVec Ideal S256x512 .f32) (o : ℕ) (ho : o + 128 ≤ 512)
    (hs : S256x512.Slices ![0, o] S256x128) (g b : FVec Ideal S1x128 .f32) (r : Fin 256) (u : Fin 1) (q : Fin 128) :
    shapeCast S256x1x128 (normTile (shapeCast S256x128 X shapeCasts_S256x1x128_S256x128) (extractStridedSlice S256x128 ![0, o] Z hs) g b)
        shapeCasts_S256x128_S256x1x128 (ix3 r u q)
      = normRsqrt (fun e => X (ix3 r (0 : Fin 1) e) + mixWeight * Z (ix2 r ⟨o + e.val, by have := e.isLt; omega⟩))
          (fun e => g (ix2 (0 : Fin 1) e)) (fun e => b (ix2 (0 : Fin 1) e)) q := by
  refine (shapeCast_ab_a1b_apply _ shapeCasts_S256x128_S256x1x128 r u q).trans ?_
  refine (normTile_apply _ _ g b r q).trans ?_
  refine congrArg (fun v => normRsqrt v (fun e => g (ix2 (0 : Fin 1) e)) (fun e => b (ix2 (0 : Fin 1) e)) q) (funext fun e => ?_)
  rw [shapeCast_a1b_ab_apply X shapeCasts_S256x1x128_S256x128 r e,
    slice2_apply 0 o Z hs r e r ⟨o + e.val, by have := e.isLt; omega⟩ (by simp) rfl]

end Cert.KernelIdeal.Tile

end
-- ==== Proof.PointSpec.lean ====
/-
  What one grid point of the kernel holds, as functions on the extended reals (no program is mentioned).

  * The carried scratch Y = X · blockdiag(W), laid out [4096, 512]: column mm·128 + e of row j is
    Σ_d X(j, mm, d) · W(d, e).
  * The output block of a point: for the point's 256 rows r, each modality mm and feature q, the row normalisation
    of v(e) = xt(mm)(r, 0, e) + 0.05 · Σ_j a(r, j) · Y(j, mm·128 + e), where xt(mm) is the point's [256, 1, 128] slab of
    node features for modality mm, a its [256, 4096] slab of adjacency rows, and gamma, beta rows [1, 128].
-/
import proofs.«178782_g39178691674269_cont_8to1_b_350_2_alg».proof.Proof.LayerSpec

noncomputable section

namespace Cert.PointSpec

open Idealize.ShloMosaic Idealize.ShloMosaic.ValueIdx Cert.LayerSpec

/-- Column `mm·128 + e` of the 512 scratch columns. -/
abbrev scratchCol (mm : Fin 4) (e : Fin 128) : Fin 512 := ⟨mm.val * 128 + e.val, by have := mm.isLt; have := e.isLt; omega⟩

/-- Entry (j, k) of the projected features: modality k / 128, feature k % 128. -/
def projAt (x : (⟨3, ![4096, 4, 128]⟩ : Shape).Idx → EReal) (w : (⟨2, ![128, 128]⟩ : Shape).Idx → EReal) (j : Fin 4096) (k : Fin 512) : EReal :=
  ∑ d : Fin 128, x (ix3 j ⟨k.val / 128, by have := k.isLt; omega⟩ d) * w (ix2 d ⟨k.val % 128, Nat.mod_lt _ (by norm_num)⟩)

/-- The projected features as a [4096, 512] array. -/
def projected (x : (⟨3, ![4096, 4, 128]⟩ : Shape).Idx → EReal) (w : (⟨2, ![128, 128]⟩ : Shape).Idx → EReal) :
    (⟨2, ![4096, 512]⟩ : Shape).Idx → EReal := fun y => projAt x w (y 0) (y 1)

theorem projected_ix2 (x : (⟨3, ![4096, 4, 128]⟩ : Shape).Idx → EReal) (w : (⟨2, ![128, 128]⟩ : Shape).Idx → EReal) (j : Fin 4096) (k : Fin 512) :
    projected x w (ix2 j k) = projAt x w j k := rfl

/-- One entry of a point's output block. -/
def blockAt (xt : Fin 4 → (⟨3, ![256, 1, 128]⟩ : Shape).Idx → EReal) (a : (⟨2, ![256, 4096]⟩ : Shape).Idx → EReal)
    (g b : (⟨2, ![1, 128]⟩ : Shape).Idx → EReal) (ys : (⟨2, ![4096, 512]⟩ : Shape).Idx → EReal)
    (r : Fin 256) (mm : Fin 4) (q : Fin 128) : EReal :=
  normRsqrt (fun e => xt mm (ix3 r (0 : Fin 1) e) + mixWeight * ∑ j : Fin 4096, a (ix2 r j) * ys (ix2 j (scratchCol mm e)))
    (fun e => g (ix2 (0 : Fin 1) e)) (fun e => b (ix2 (0 : Fin 1) e)) q

/-- A point's output block as a [256, 4, 128] array. -/
def block (xt : Fin 4 → (⟨3, ![256, 1, 128]⟩ : Shape).Idx → EReal) (a : (⟨2, ![256, 4096]⟩ : Shape).Idx → EReal)
    (g b : (⟨2, ![1, 128]⟩ : Shape).Idx → EReal) (ys : (⟨2, ![4096, 512]⟩ : Shape).Idx → EReal) :
    (⟨3, ![256, 4, 128]⟩ : Shape).Idx → EReal := fun y => blockAt xt a g b ys (y 0) (y 1) (y 2)

theorem block_ix3 (xt : Fin 4 → (⟨3, ![256, 1, 128]⟩ : Shape).Idx → EReal) (a : (⟨2, ![256, 4096]⟩ : Shape).Idx → EReal)
    (g b : (⟨2, ![1, 128]⟩ : Shape).Idx → EReal) (ys : (⟨2, ![4096, 512]⟩ : Shape).Idx → EReal) (r : Fin 256) (mm : Fin 4) (q : Fin 128) :
    block xt a g b ys (ix3 r mm q) = blockAt xt a g b ys r mm q := rfl

end Cert.PointSpec

end
-- ==== Proof.KernelPieces.lean ====
/-
  Each store of the kernel body is one function of the buffer's index, restricted to the store's rectangle.

  * A projection store writes columns mm·128 … mm·128+127 of the [4096, 512] scratch with the projection of
    modality mm's slab: on that rectangle it is the projected features X · blockdiag(W).
  * An epilogue store writes plane mm of the [256, 4, 128] output block: on that plane it is the point's block
    function (row normalisation of x + 0.05 · (a · Y)).
-/
import proofs.«178782_g39178691674269_cont_8to1_b_350_2_alg».proof.Proof.KernelProducts
import proofs.«178782_g39178691674269_cont_8to1_b_350_2_alg».proof.Proof.PointSpec

noncomputable section

namespace Cert.KernelIdeal.Tile

open Idealize.ShloMosaic Idealize.ShloMosaic.ValueIdx Cert.KernelIdeal Cert.LayerSpec Cert.PointSpec

variable [Facts]
open Facts₀ Facts

/-- Plane `mm` of the output block: the rectangle at offset (0, mm, 0) of extent (256, 1, 128) places (r, u, q) at (r, mm, q). -/
theorem plane_emb (mm : Fin 4) (inb : ∀ a, (![0, mm.val, 0] : Fin 3 → ℕ) a + (![256, 1, 128] : Fin 3 → ℕ) a ≤ S256x4x128.size a)
    (r : Fin 256) (u : Fin 1) (q : Fin 128) :
    (Rect.unit (s := S256x4x128) ![0, mm.val, 0] ![256, 1, 128] inb).emb (ix3 r u q) = ix3 r mm q := by
  funext ax; apply Fin.ext
  have hu : u.val = 0 := by omega
  match ax with
  | ⟨0, _⟩ => simp [Rect.emb_apply]
  | ⟨1, _⟩ => simp [Rect.emb_apply, hu]
  | ⟨2, _⟩ => simp [Rect.emb_apply]

/-- An epilogue store is the block function on its plane. -/
theorem tileStore_eq_block (xt : Fin 4 → Vec Ideal S256x1x128 .f32) (a : Vec Ideal S256x4096 .f32) (ys : Vec Ideal S4096x512 .bf16)
    (g b : FVec Ideal S1x128 .f32) (mm : Fin 4) (hs : S256x512.Slices ![0, mm.val * 128] S256x128)
    (inb : ∀ a, (![0, mm.val, 0] : Fin 3 → ℕ) a + (![256, 1, 128] : Fin 3 → ℕ) a ≤ S256x4x128.size a)
    (x : (Rect.unit (s := S256x4x128) ![0, mm.val, 0] ![256, 1, 128] inb).shape.Idx) :
    shapeCast S256x1x128 (normTile (shapeCast S256x128 (xt mm) shapeCasts_S256x1x128_S256x128)
        (extractStridedSlice S256x128 ![0, mm.val * 128] (Gen.k0_pay8 a ys) hs) g b) shapeCasts_S256x128_S256x1x128 x
      = block xt a g b ys ((Rect.unit (s := S256x4x128) ![0, mm.val, 0] ![256, 1, 128] inb).emb x) := by
  obtain ⟨r, u, q, rfl⟩ : ∃ (r : Fin 256) (u : Fin 1) (q : Fin 128), x = ix3 r u q := ⟨x 0, x 1, x 2, eq_ix3 x⟩
  rw [plane_emb mm inb r u q, block_ix3]
  refine (storeTile_apply (xt mm) (Gen.k0_pay8 a ys) (mm.val * 128) (by have := mm.isLt; omega) hs g b r u q).trans ?_
  unfold blockAt
  refine congrArg (fun v => normRsqrt v (fun e => g (ix2 (0 : Fin 1) e)) (fun e => b (ix2 (0 : Fin 1) e)) q) (funext fun e => ?_)
  exact congrArg (fun z => xt mm (ix3 r (0 : Fin 1) e) + mixWeight * z) (nbrSum_apply a ys r (scratchCol mm e))

/-- Columns mm·128 … of the scratch: the rectangle at offset (0, mm·128) of extent (4096, 128) places (j, e) at (j, mm·128 + e). -/
theorem cols_emb (mm : Fin 4) (inb : ∀ a, (![0, mm.val * 128] : Fin 2 → ℕ) a + (![4096, 128] : Fin 2 → ℕ) a ≤ S4096x512.size a)
    (j : Fin 4096) (e : Fin 128) :
    (Rect.unit (s := S4096x512) ![0, mm.val * 128] ![4096, 128] inb).emb (ix2 j e) = ix2 j (scratchCol mm e) := by
  funext ax; apply Fin.ext
  match ax with
  | ⟨0, _⟩ => simp [Rect.emb_apply]
  | ⟨1, _⟩ => simp [Rect.emb_apply]

/-- Slab `mm` of the node features: the rectangle at offset (0, mm, 0) of extent (4096, 1, 128) places (j, u, d) at (j, mm, d). -/
theorem slab_emb (mm : Fin 4) (inb : ∀ a, (![0, mm.val, 0] : Fin 3 → ℕ) a + (![4096, 1, 128] : Fin 3 → ℕ) a ≤ S4096x4x128.size a)
    (j : Fin 4096) (u : Fin 1) (d : Fin 128) :
    (Rect.unit (s := S4096x4x128) ![0, mm.val, 0] ![4096, 1, 128] inb).emb (ix3 j u d) = ix3 j mm d := by
  funext ax; apply Fin.ext
  have hu : u.val = 0 := by omega
  match ax with
  | ⟨0, _⟩ => simp [Rect.emb_apply]
  | ⟨1, _⟩ => simp [Rect.emb_apply, hu]
  | ⟨2, _⟩ => simp [Rect.emb_apply]

/-- A projection store is the projected features on its columns. -/
theorem projStore_eq_projected (x0 : Vec Ideal S4096x4x128 .f32) (w : Vec Ideal S128x128 .f32) (mm : Fin 4)
    (inbS : ∀ a, (![0, mm.val, 0] : Fin 3 → ℕ) a + (![4096, 1, 128] : Fin 3 → ℕ) a ≤ S4096x4x128.size a)
    (inb : ∀ a, (![0, mm.val * 128] : Fin 2 → ℕ) a + (![4096, 128] : Fin 2 → ℕ) a ≤ S4096x512.size a)
    (x : (Rect.unit (s := S4096x512) ![0, mm.val * 128] ![4096, 128] inb).shape.Idx) :
    Gen.k0_pay3 w (View.ld x0 (Rect.unit (s := S4096x4x128) ![0, mm.val, 0] ![4096, 1, 128] inbS)) x
      = projected x0 w ((Rect.unit (s := S4096x512) ![0, mm.val * 128] ![4096, 128] inb).emb x) := by
  obtain ⟨j, e, rfl⟩ : ∃ (j : Fin 4096) (e : Fin 128), x = ix2 j e := ⟨x 0, x 1, eq_ix2 x⟩
  rw [cols_emb mm inb j e, projected_ix2]
  refine (proj_apply w _ j e).trans ?_
  unfold projAt
  refine Finset.sum_congr rfl fun d _ => ?_
  have hq : (⟨(scratchCol mm e).val / 128, by have := (scratchCol mm e).isLt; omega⟩ : Fin 4) = mm :=
    Fin.ext (by show (mm.val * 128 + e.val) / 128 = mm.val; have := e.isLt; omega)
  have hr : (⟨(scratchCol mm e).val % 128, Nat.mod_lt _ (by norm_num)⟩ : Fin 128) = e :=
    Fin.ext (by show (mm.val * 128 + e.val) % 128 = e.val; have := e.isLt; omega)
  rw [hq, hr]
  exact congrArg (· * w (ix2 d e)) (congrArg x0 (slab_emb mm inbS j 0 d))

end Cert.KernelIdeal.Tile

end
-- ==== Proof.KernelCases.lean ====
/-
  What one run of the kernel body leaves, in each of its two cases, as functions of the buffers' contents.

  Case A (the first grid point): the body first fills the carried scratch with the projected features
  Y = X · blockdiag(W) by four column stores, then reads the scratch back whole and stores the four planes of the
  output block.  Case B (every later point): the scratch is as the point before left it, and the four planes
  are stored from it.  In both cases the output block is the point's block function of the node-feature slabs,
  the adjacency slab, gamma, beta and the scratch contents; in case A the scratch contents are Y.
  The stores of a buffer tile it, so reading the pieces back is reading one function.
-/
import proofs.«178782_g39178691674269_cont_8to1_b_350_2_alg».proof.Proof.Gen.KernelIdeal.Frame
import proofs.«178782_g39178691674269_cont_8to1_b_350_2_alg».proof.Proof.KernelPieces

set_option maxRecDepth 16384

noncomputable section

namespace Cert.KernelIdeal.Cases

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Tile Cert.PointSpec

/-- The point's four [256, 1, 128] slabs of node features, one per modality: rows 256·i … of the whole array. -/
def slabs (i : grid0.Coords) (x0 : Vec Ideal S4096x4x128 .f32) : Fin 4 → Vec Ideal S256x1x128 .f32 := fun mm =>
  match mm with
  | ⟨0, _⟩ => View.ld x0 (Rect.unit (s := S4096x4x128) (k0_off1 i) S256x1x128.size (Facts₀.k0_off1_inb i))
  | ⟨1, _⟩ => View.ld x0 (Rect.unit (s := S4096x4x128) (k0_off2 i) S256x1x128.size (Facts₀.k0_off2_inb i))
  | ⟨2, _⟩ => View.ld x0 (Rect.unit (s := S4096x4x128) (k0_off3 i) S256x1x128.size (Facts₀.k0_off3_inb i))
  | ⟨_ + 3, _⟩ => View.ld x0 (Rect.unit (s := S4096x4x128) (k0_off4 i) S256x1x128.size (Facts₀.k0_off4_inb i))

theorem zero2 : (![0, 0] : Fin 2 → ℕ) = fun _ => 0 := funext fun a => by match a with | ⟨0, _⟩ => rfl | ⟨1, _⟩ => rfl

/-- The identity casts of the gamma and beta rows. -/
theorem gammaRow_eq (v : Vec Ideal S1x128 .f32) : Gen.k0_pay9 v = v := shapeCast_self _ _
theorem betaRow_eq (v : Vec Ideal S1x128 .f32) : Gen.k0_pay10 v = v := shapeCast_self _ _

/-- Case B: the output block is the block function over the scratch as found. -/
theorem out0_B_5_eq (c : Dev nD) (i : grid0.Coords) (arg1 : Memref sig .tc .vmem S4096x4x128 .f32) (harg1 : arg1.IsWhole) (arg2 : Memref sig .tc .vmem S256x4096 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x4x128 .f32) (harg6 : arg6.IsWhole) (arg7 : Memref sig .tc .vmem S4096x512 .bf16) (harg7 : arg7.IsWhole) (hc0 : ¬cond0_0 i) (x0 : Vec Ideal S4096x4x128 .f32) (x1 : Vec Ideal S256x4096 .f32) (x2 : Vec Ideal S128x128 .f32) (x3 : Vec Ideal S1x128 .f32) (x4 : Vec Ideal S1x128 .f32) (xs0 : Vec Ideal S4096x512 .bf16) :
    out0_B_5 (F := Ideal) c i arg1 harg1 arg2 harg2 arg3 harg3 arg4 harg4 arg5 harg5 arg6 harg6 arg7 harg7 hc0 x0 x1 x2 x3 x4 xs0 = block (slabs i x0) x1 x3 x4 xs0 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  funext y
  have hG : block (slabs i x0) x1 x3 x4 xs0 = block (slabs i x0) x1 (Gen.k0_pay9 x3) (Gen.k0_pay10 x4) xs0 := by rw [gammaRow_eq, betaRow_eq]
  rw [hG]
  refine View.canon_apply_of_pieces (block (slabs i x0) x1 (Gen.k0_pay9 x3) (Gen.k0_pay10 x4) xs0) _ ?_ y (cover0_B_5 c i arg1 harg1 arg2 harg2 arg3 harg3 arg4 harg4 arg5 harg5 arg6 harg6 arg7 harg7 hc0 x0 x1 x2 x3 x4 xs0 y)
  unfold kernelRun0_B; dsimp only; sl_unfold_words
  simp only [View.readAt_eq_ld, harg1.read_unread, harg2.read_unread, harg4.read_unread, harg5.read_unread, harg7.read_unread,
    View.ld_unit_zero (S := S256x4096) zero2, View.ld_unit_zero (S := S1x128) zero2, View.ld_unit_zero (S := S4096x512) zero2]
  intro p hp
  simp only [List.mem_cons, List.not_mem_nil, or_false] at hp
  rcases hp with rfl | rfl | rfl | rfl
  · intro x; exact tileStore_eq_block (slabs i x0) x1 xs0 (Gen.k0_pay9 x3) (Gen.k0_pay10 x4) 3 Facts₀.slices_S256x512_o0_384_S256x128 Facts₀.inb_S256x4x128_S256x1x128_0_3_0 x
  · intro x; exact tileStore_eq_block (slabs i x0) x1 xs0 (Gen.k0_pay9 x3) (Gen.k0_pay10 x4) 2 Facts₀.slices_S256x512_o0_256_S256x128 Facts₀.inb_S256x4x128_S256x1x128_0_2_0 x
  · intro x; exact tileStore_eq_block (slabs i x0) x1 xs0 (Gen.k0_pay9 x3) (Gen.k0_pay10 x4) 1 Facts₀.slices_S256x512_o0_128_S256x128 Facts₀.inb_S256x4x128_S256x1x128_0_1_0 x
  · intro x; exact tileStore_eq_block (slabs i x0) x1 xs0 (Gen.k0_pay9 x3) (Gen.k0_pay10 x4) 0 Facts₀.slices_S256x512_o0_0_S256x128 Facts₀.inb_S256x4x128_S256x1x128_0_0_0 x

theorem slabs_zero (i : grid0.Coords) (x0 : Vec Ideal S4096x4x128 .f32) :
    slabs i x0 0 = View.ld x0 (Rect.unit (s := S4096x4x128) (k0_off1 i) S256x1x128.size (Facts₀.k0_off1_inb i)) := rfl
theorem slabs_one (i : grid0.Coords) (x0 : Vec Ideal S4096x4x128 .f32) :
    slabs i x0 1 = View.ld x0 (Rect.unit (s := S4096x4x128) (k0_off2 i) S256x1x128.size (Facts₀.k0_off2_inb i)) := rfl
theorem slabs_two (i : grid0.Coords) (x0 : Vec Ideal S4096x4x128 .f32) :
    slabs i x0 2 = View.ld x0 (Rect.unit (s := S4096x4x128) (k0_off3 i) S256x1x128.size (Facts₀.k0_off3_inb i)) := rfl
theorem slabs_three (i : grid0.Coords) (x0 : Vec Ideal S4096x4x128 .f32) :
    slabs i x0 3 = View.ld x0 (Rect.unit (s := S4096x4x128) (k0_off4 i) S256x1x128.size (Facts₀.k0_off4_inb i)) := rfl

/-- The four column stores of the first point, read back as one function: the projected features. -/
theorem scratchFill_canon (x0 : Vec Ideal S4096x4x128 .f32) (x2 : Vec Ideal S128x128 .f32) :
    View.canon (Val := Elt Ideal) (s := S4096x512) (e := EltTy.bf16)
      [⟨Rect.unit (s := S4096x512) ![0, 384] S4096x128.size Facts₀.inb_S4096x512_S4096x128_0_384,
          k0_pay7 (k0_pay6 x2 (View.ld x0 (Rect.unit (s := S4096x4x128) ![0, 3, 0] S4096x1x128.size Facts₀.inb_S4096x4x128_S4096x1x128_0_3_0)))⟩,
        ⟨Rect.unit (s := S4096x512) ![0, 256] S4096x128.size Facts₀.inb_S4096x512_S4096x128_0_256,
          k0_pay5 x2 (View.ld x0 (Rect.unit (s := S4096x4x128) ![0, 2, 0] S4096x1x128.size Facts₀.inb_S4096x4x128_S4096x1x128_0_2_0))⟩,
        ⟨Rect.unit (s := S4096x512) ![0, 128] S4096x128.size Facts₀.inb_S4096x512_S4096x128_0_128,
          k0_pay4 x2 (View.ld x0 (Rect.unit (s := S4096x4x128) ![0, 1, 0] S4096x1x128.size Facts₀.inb_S4096x4x128_S4096x1x128_0_1_0))⟩,
        ⟨Rect.unit (s := S4096x512) ![0, 0] S4096x128.size Facts₀.inb_S4096x512_S4096x128_0_0,
          k0_pay3 x2 (View.ld x0 (Rect.unit (s := S4096x4x128) ![0, 0, 0] S4096x1x128.size Facts₀.inb_S4096x4x128_S4096x1x128_0_0_0))⟩]
      = projected x0 x2 := by
  funext y
  refine View.canon_apply_of_pieces (projected x0 x2) _ ?_ y (View.cover_of_tiledL (Val := Elt Ideal) (s := S4096x512) (e := EltTy.bf16) _ ![4096, 128] (by sl_kernel_rfl) y)
  intro p hp
  simp only [List.mem_cons, List.not_mem_nil, or_false] at hp
  rcases hp with rfl | rfl | rfl | rfl
  · intro x; exact projStore_eq_projected x0 x2 3 Facts₀.inb_S4096x4x128_S4096x1x128_0_3_0 Facts₀.inb_S4096x512_S4096x128_0_384 x
  · intro x; exact projStore_eq_projected x0 x2 2 Facts₀.inb_S4096x4x128_S4096x1x128_0_2_0 Facts₀.inb_S4096x512_S4096x128_0_256 x
  · intro x; exact projStore_eq_projected x0 x2 1 Facts₀.inb_S4096x4x128_S4096x1x128_0_1_0 Facts₀.inb_S4096x512_S4096x128_0_128 x
  · intro x; exact projStore_eq_projected x0 x2 0 Facts₀.inb_S4096x4x128_S4096x1x128_0_0_0 Facts₀.inb_S4096x512_S4096x128_0_0 x

/-- The whole scratch loaded back after the four column stores reads the projected features. -/
theorem scratchRead_eq (v : View sig .tc .vmem S4096x512 .bf16) (x0 : Vec Ideal S4096x4x128 .f32) (x2 : Vec Ideal S128x128 .f32) :
    v.readCov (Val := Elt Ideal)
      [⟨Rect.unit (s := S4096x512) ![0, 384] S4096x128.size Facts₀.inb_S4096x512_S4096x128_0_384,
          k0_pay7 (k0_pay6 x2 (View.ld x0 (Rect.unit (s := S4096x4x128) ![0, 3, 0] S4096x1x128.size Facts₀.inb_S4096x4x128_S4096x1x128_0_3_0)))⟩,
        ⟨Rect.unit (s := S4096x512) ![0, 256] S4096x128.size Facts₀.inb_S4096x512_S4096x128_0_256,
          k0_pay5 x2 (View.ld x0 (Rect.unit (s := S4096x4x128) ![0, 2, 0] S4096x1x128.size Facts₀.inb_S4096x4x128_S4096x1x128_0_2_0))⟩,
        ⟨Rect.unit (s := S4096x512) ![0, 128] S4096x128.size Facts₀.inb_S4096x512_S4096x128_0_128,
          k0_pay4 x2 (View.ld x0 (Rect.unit (s := S4096x4x128) ![0, 1, 0] S4096x1x128.size Facts₀.inb_S4096x4x128_S4096x1x128_0_1_0))⟩,
        ⟨Rect.unit (s := S4096x512) ![0, 0] S4096x128.size Facts₀.inb_S4096x512_S4096x128_0_0,
          k0_pay3 x2 (View.ld x0 (Rect.unit (s := S4096x4x128) ![0, 0, 0] S4096x1x128.size Facts₀.inb_S4096x4x128_S4096x1x128_0_0_0))⟩]
      (Rect.unit (s := S4096x512) ![0, 0] S4096x512.size Facts₀.inb_S4096x512_S4096x512_0_0).toLoadRect
      = projected x0 x2 := by
  rw [View.readCov_eq_canon_ld _ _ _ (fun y => View.cover_of_tiledL (Val := Elt Ideal) (s := S4096x512) (e := EltTy.bf16) _ ![4096, 128] (by sl_kernel_rfl) y), scratchFill_canon x0 x2,
    View.ld_unit_zero zero2]

/-- Case A: the carried scratch ends at the projected features. -/
theorem sout0_A_0_eq (c : Dev nD) (i : grid0.Coords) (arg1 : Memref sig .tc .vmem S4096x4x128 .f32) (harg1 : arg1.IsWhole) (arg2 : Memref sig .tc .vmem S256x4096 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x4x128 .f32) (harg6 : arg6.IsWhole) (arg7 : Memref sig .tc .vmem S4096x512 .bf16) (harg7 : arg7.IsWhole) (hc0 : cond0_0 i) (x0 : Vec Ideal S4096x4x128 .f32) (x1 : Vec Ideal S256x4096 .f32) (x2 : Vec Ideal S128x128 .f32) (x3 : Vec Ideal S1x128 .f32) (x4 : Vec Ideal S1x128 .f32) :
    sout0_A_0 (F := Ideal) c i arg1 harg1 arg2 harg2 arg3 harg3 arg4 harg4 arg5 harg5 arg6 harg6 arg7 harg7 hc0 x0 x1 x2 x3 x4 = projected x0 x2 := by
  unfold sout0_A_0
  rw [View.read_writes_junk_eq_canon]
  unfold kernelRun0_A; dsimp only; sl_unfold_words
  simp only [View.readAt_eq_ld, harg1.read_unread, harg3.read_unread, View.ld_unit_zero (S := S128x128) zero2]
  exact scratchFill_canon x0 x2

/-- Case A: the output block is the block function over the projected features. -/
theorem out0_A_5_eq (c : Dev nD) (i : grid0.Coords) (arg1 : Memref sig .tc .vmem S4096x4x128 .f32) (harg1 : arg1.IsWhole) (arg2 : Memref sig .tc .vmem S256x4096 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x4x128 .f32) (harg6 : arg6.IsWhole) (arg7 : Memref sig .tc .vmem S4096x512 .bf16) (harg7 : arg7.IsWhole) (hc0 : cond0_0 i) (x0 : Vec Ideal S4096x4x128 .f32) (x1 : Vec Ideal S256x4096 .f32) (x2 : Vec Ideal S128x128 .f32) (x3 : Vec Ideal S1x128 .f32) (x4 : Vec Ideal S1x128 .f32) :
    out0_A_5 (F := Ideal) c i arg1 harg1 arg2 harg2 arg3 harg3 arg4 harg4 arg5 harg5 arg6 harg6 arg7 harg7 hc0 x0 x1 x2 x3 x4 = block (slabs i x0) x1 x3 x4 (projected x0 x2) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  have hG : block (slabs i x0) x1 x3 x4 (projected x0 x2) = block (slabs i x0) x1 (Gen.k0_pay9 x3) (Gen.k0_pay10 x4) (projected x0 x2) := by rw [gammaRow_eq, betaRow_eq]
  rw [hG]
  refine View.canon_apply_of_pieces (block (slabs i x0) x1 (Gen.k0_pay9 x3) (Gen.k0_pay10 x4) (projected x0 x2)) _ ?_ y (cover0_A_5 c i arg1 harg1 arg2 harg2 arg3 harg3 arg4 harg4 arg5 harg5 arg6 harg6 arg7 harg7 hc0 x0 x1 x2 x3 x4 y)
  unfold kernelRun0_A; dsimp only; sl_unfold_words
  simp only [View.readAt_eq_ld, harg1.read_unread, harg2.read_unread, harg3.read_unread, harg4.read_unread, harg5.read_unread,
    View.ld_unit_zero (S := S256x4096) zero2, View.ld_unit_zero (S := S1x128) zero2, View.ld_unit_zero (S := S128x128) zero2]
  generalize hY : arg7.view.readCov (Val := Elt Ideal) _ _ = Y
  obtain rfl : Y = projected x0 x2 := hY.symm.trans (scratchRead_eq arg7.view x0 x2)
  intro p hp
  simp only [List.mem_cons, List.not_mem_nil, or_false] at hp
  rcases hp with rfl | rfl | rfl | rfl
  · intro x; exact tileStore_eq_block (slabs i x0) x1 (projected x0 x2) (Gen.k0_pay9 x3) (Gen.k0_pay10 x4) 3 Facts₀.slices_S256x512_o0_384_S256x128 Facts₀.inb_S256x4x128_S256x1x128_0_3_0 x
  · intro x; exact tileStore_eq_block (slabs i x0) x1 (projected x0 x2) (Gen.k0_pay9 x3) (Gen.k0_pay10 x4) 2 Facts₀.slices_S256x512_o0_256_S256x128 Facts₀.inb_S256x4x128_S256x1x128_0_2_0 x
  · intro x; exact tileStore_eq_block (slabs i x0) x1 (projected x0 x2) (Gen.k0_pay9 x3) (Gen.k0_pay10 x4) 1 Facts₀.slices_S256x512_o0_128_S256x128 Facts₀.inb_S256x4x128_S256x1x128_0_1_0 x
  · intro x; exact tileStore_eq_block (slabs i x0) x1 (projected x0 x2) (Gen.k0_pay9 x3) (Gen.k0_pay10 x4) 0 Facts₀.slices_S256x512_o0_0_S256x128 Facts₀.inb_S256x4x128_S256x1x128_0_0_0 x

end Cert.KernelIdeal.Cases

end
-- ==== Proof.KernelWindows.lean ====
/-
  The kernel's windows read by coordinates.

  The kernel is one pipelined call over a grid of sixteen points t.  Point t works on the 256 nodes
  256·t … 256·t + 255: the adjacency window hands it those rows, the output window takes those rows back, and the
  features, the projection and the two normalisation vectors are handed whole at every point.  Inside the body
  four loads read, for each modality, the slab of the point's 256 rows of the whole feature array.  This module
  states each of these as an equation between coordinates: which entry of an argument array an entry of a block
  is, where an entry of the output block lands, and that the sixteen output blocks cover the array.
-/
import proofs.«178782_g39178691674269_cont_8to1_b_350_2_alg».proof.Proof.Gen.KernelIdeal.Value
import Idealize.ShloMosaic.Lib.Pipeline.Value
import Idealize.ShloMosaic.Lib.ValueIdx
import Idealize.ShloMosaic.Lib.ValueLayout

set_option maxRecDepth 16384

noncomputable section

namespace Cert.KernelIdeal.Windows

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The node that row r of point t's blocks is: 256·t + r. -/
abbrev pointRow (t : Fin cfg0.N) (r : Fin 256) : Fin 4096 :=
  ⟨256 * t.val + r.val, by have := t.isLt; have hN : cfg0.N = 16 := N_0; omega⟩

/-! ## The body's four slab loads -/

/-- The offsets the body computes for its four loads of the feature array, at each of the sixteen points: row
    256·t, modality 0 … 3, feature 0. -/
theorem slab_offsets : ∀ t : Fin cfg0.N,
    k0_off1 (grid0.coords t) = ![256 * t.val, 0, 0] ∧ k0_off2 (grid0.coords t) = ![256 * t.val, 1, 0]
    ∧ k0_off3 (grid0.coords t) = ![256 * t.val, 2, 0] ∧ k0_off4 (grid0.coords t) = ![256 * t.val, 3, 0] :=
  (by decide +kernel : ∀ t : Fin grid0.N, _)

/-- The load for modality 0 reads, at (r, ·, e), the features' entry (256·t + r, 0, e). -/
theorem rowSlab1_apply (t : Fin cfg0.N) (x0 : Vec F S4096x4x128 .f32) (r : Fin 256) (e : Fin 128) :
    View.ld (Val := Elt F) x0 (Rect.unit (s := S4096x4x128) (k0_off1 (grid0.coords t)) S256x1x128.size (k0_off1_inb (grid0.coords t)))
        (ix3 r (0 : Fin 1) e)
      = x0 (ix3 (pointRow t r) (0 : Fin 4) e) := by
  have h := (slab_offsets t).1
  show x0 _ = x0 _
  refine congrArg x0 (funext fun a => Fin.ext ?_)
  match a with
  | ⟨0, _⟩ => show k0_off1 (grid0.coords t) 0 + 1 * r.val = 256 * t.val + r.val; rw [h]; show 256 * t.val + 1 * r.val = _; omega
  | ⟨1, _⟩ => show k0_off1 (grid0.coords t) 1 + 1 * 0 = 0; rw [h]; rfl
  | ⟨2, _⟩ => show k0_off1 (grid0.coords t) 2 + 1 * e.val = e.val; rw [h]; show 0 + 1 * e.val = _; omega

/-- The load for modality 1 reads, at (r, ·, e), the features' entry (256·t + r, 1, e). -/
theorem rowSlab2_apply (t : Fin cfg0.N) (x0 : Vec F S4096x4x128 .f32) (r : Fin 256) (e : Fin 128) :
    View.ld (Val := Elt F) x0 (Rect.unit (s := S4096x4x128) (k0_off2 (grid0.coords t)) S256x1x128.size (k0_off2_inb (grid0.coords t)))
        (ix3 r (0 : Fin 1) e)
      = x0 (ix3 (pointRow t r) (1 : Fin 4) e) := by
  have h := (slab_offsets t).2.1
  show x0 _ = x0 _
  refine congrArg x0 (funext fun a => Fin.ext ?_)
  match a with
  | ⟨0, _⟩ => show k0_off2 (grid0.coords t) 0 + 1 * r.val = 256 * t.val + r.val; rw [h]; show 256 * t.val + 1 * r.val = _; omega
  | ⟨1, _⟩ => show k0_off2 (grid0.coords t) 1 + 1 * 0 = 1; rw [h]; rfl
  | ⟨2, _⟩ => show k0_off2 (grid0.coords t) 2 + 1 * e.val = e.val; rw [h]; show 0 + 1 * e.val = _; omega

/-- The load for modality 2 reads, at (r, ·, e), the features' entry (256·t + r, 2, e). -/
theorem rowSlab3_apply (t : Fin cfg0.N) (x0 : Vec F S4096x4x128 .f32) (r : Fin 256) (e : Fin 128) :
    View.ld (Val := Elt F) x0 (Rect.unit (s := S4096x4x128) (k0_off3 (grid0.coords t)) S256x1x128.size (k0_off3_inb (grid0.coords t)))
        (ix3 r (0 : Fin 1) e)
      = x0 (ix3 (pointRow t r) (2 : Fin 4) e) := by
  have h := (slab_offsets t).2.2.1
  show x0 _ = x0 _
  refine congrArg x0 (funext fun a => Fin.ext ?_)
  match a with
  | ⟨0, _⟩ => show k0_off3 (grid0.coords t) 0 + 1 * r.val = 256 * t.val + r.val; rw [h]; show 256 * t.val + 1 * r.val = _; omega
  | ⟨1, _⟩ => show k0_off3 (grid0.coords t) 1 + 1 * 0 = 2; rw [h]; rfl
  | ⟨2, _⟩ => show k0_off3 (grid0.coords t) 2 + 1 * e.val = e.val; rw [h]; show 0 + 1 * e.val = _; omega

/-- The load for modality 3 reads, at (r, ·, e), the features' entry (256·t + r, 3, e). -/
theorem rowSlab4_apply (t : Fin cfg0.N) (x0 : Vec F S4096x4x128 .f32) (r : Fin 256) (e : Fin 128) :
    View.ld (Val := Elt F) x0 (Rect.unit (s := S4096x4x128) (k0_off4 (grid0.coords t)) S256x1x128.size (k0_off4_inb (grid0.coords t)))
        (ix3 r (0 : Fin 1) e)
      = x0 (ix3 (pointRow t r) (3 : Fin 4) e) := by
  have h := (slab_offsets t).2.2.2
  show x0 _ = x0 _
  refine congrArg x0 (funext fun a => Fin.ext ?_)
  match a with
  | ⟨0, _⟩ => show k0_off4 (grid0.coords t) 0 + 1 * r.val = 256 * t.val + r.val; rw [h]; show 256 * t.val + 1 * r.val = _; omega
  | ⟨1, _⟩ => show k0_off4 (grid0.coords t) 1 + 1 * 0 = 3; rw [h]; rfl
  | ⟨2, _⟩ => show k0_off4 (grid0.coords t) 2 + 1 * e.val = e.val; rw [h]; show 0 + 1 * e.val = _; omega

/-! ## The output window -/

/-- The output window's block index at each point: (t, 0, 0). -/
theorem out_index : ∀ t : Fin cfg0.N, win0_5.index t (0 : Fin 3) = t.val ∧ win0_5.index t (1 : Fin 3) = 0 ∧ win0_5.index t (2 : Fin 3) = 0 :=
  (by decide +kernel : ∀ t : Fin grid0.N, _)

/-- Entry (r, mm, q) of point t's output block lands at (256·t + r, mm, q) of the result array. -/
theorem outBlk_emb (t : Fin cfg0.N) (r : Fin 256) (mm : Fin 4) (q : Fin 128) :
    ((cfg0.win 5).blk t).view.emb (ix3 r mm q) = ix3 (pointRow t r) mm q := by
  obtain ⟨e0, e1, e2⟩ := out_index t
  funext a; apply Fin.ext
  match a with
  | ⟨0, _⟩ => show win0_5.index t (0 : Fin 3) * 256 + 1 * r.val = 256 * t.val + r.val; rw [e0]; omega
  | ⟨1, _⟩ => show win0_5.index t (1 : Fin 3) * 4 + 1 * mm.val = mm.val; rw [e1]; omega
  | ⟨2, _⟩ => show win0_5.index t (2 : Fin 3) * 128 + 1 * q.val = q.val; rw [e2]; omega

/-- An index of the result array is in point t's block iff each coordinate is in the block's range on its axis. -/
theorem mem_outBlk (t : Fin cfg0.N) (i : S4096x4x128.Idx) :
    i ∈ ((cfg0.win 5).blk t).view.set ↔ ∀ a : Fin 3, win0_5.index t a * S256x4x128.size a ≤ (i a).val ∧ (i a).val < win0_5.index t a * S256x4x128.size a + S256x4x128.size a := by
  show i ∈ ((View.whole main_v0).slice (win0_5.rect t)).set ↔ _
  rw [View.set_slice_whole, Rect.mem_set_unit]
  exact Iff.rfl

/-- THE COVER: every index of the result array is in the block of the point that owns its node, n / 256. -/
theorem cover5 : ∀ i : S4096x4x128.Idx, ∃ t : Fin cfg0.N, (cfg0.win 5).flush t = true ∧ i ∈ ((cfg0.win 5).blk t).view.set := by
  intro i
  have hi0 : (i 0).val < 4096 := (i 0).isLt
  have hi1 : (i 1).val < 4 := (i 1).isLt
  have hi2 : (i 2).val < 128 := (i 2).isLt
  have hN : cfg0.N = 16 := N_0
  let t : Fin cfg0.N := ⟨(i 0).val / 256, by omega⟩
  obtain ⟨e0, e1, e2⟩ := out_index t
  have ht : t.val = (i 0).val / 256 := rfl
  refine ⟨t, flush0_5 t, ?_⟩
  rw [mem_outBlk]
  intro a
  match a with
  | ⟨0, _⟩ => show win0_5.index t (0 : Fin 3) * 256 ≤ (i 0).val ∧ (i 0).val < win0_5.index t (0 : Fin 3) * 256 + 256; rw [e0, ht]; omega
  | ⟨1, _⟩ => show win0_5.index t (1 : Fin 3) * 4 ≤ (i 1).val ∧ (i 1).val < win0_5.index t (1 : Fin 3) * 4 + 4; rw [e1]; omega
  | ⟨2, _⟩ => show win0_5.index t (2 : Fin 3) * 128 ≤ (i 2).val ∧ (i 2).val < win0_5.index t (2 : Fin 3) * 128 + 128; rw [e2]; omega

/-- The output window is uncut (its blocks tile the array): what a point writes back is the whole block. -/
theorem cut5_eq (t : Fin cfg0.N) (X : Vec F S256x4x128 .f32) : (cfg0.win 5).cut (grid0.coords t) X = X := rfl

/-! ## The input windows -/

/-- The input windows' block indices at each point: the adjacency's is (t, 0); the others' are zero. -/
theorem in_index : ∀ t : Fin cfg0.N,
    (win0_0.index t (0 : Fin 3) = 0 ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The features' window hands the body the whole array at every point. -/
theorem iblk0_eq (c : Dev nD) (t : Fin cfg0.N) :
    (iblk m c 0 t : Vec F S4096x4x128 .f32) = (V m c main_arg0 : S4096x4x128.Idx → Elt F .f32) := by
  obtain ⟨⟨e0, e1, e2⟩, -⟩ := in_index t
  funext y
  unfold iblk
  rw [View.read_apply]
  show V m c main_arg0 _ = V m c main_arg0 _
  congr 1
  funext a; apply Fin.ext
  match a with
  | ⟨0, _⟩ => show win0_0.index t (0 : Fin 3) * 4096 + 1 * (y 0).val = (y 0).val; rw [e0]; omega
  | ⟨1, _⟩ => show win0_0.index t (1 : Fin 3) * 4 + 1 * (y 1).val = (y 1).val; rw [e1]; omega
  | ⟨2, _⟩ => show win0_0.index t (2 : Fin 3) * 128 + 1 * (y 2).val = (y 2).val; rw [e2]; omega

/-- The projection's window hands the body the whole matrix at every point. -/
theorem iblk2_eq (c : Dev nD) (t : Fin cfg0.N) :
    (iblk m c 2 t : Vec F S128x128 .f32) = (V m c main_arg2 : S128x128.Idx → Elt F .f32) := by
  obtain ⟨-, -, ⟨e0, e1⟩, -⟩ := in_index t
  funext y
  unfold iblk
  rw [View.read_apply]
  show V m c main_arg2 _ = V m c main_arg2 _
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The adjacency's window hands point t the rows 256·t … 256·t + 255: entry (r, j) of the block is entry
    (256·t + r, j) of the matrix. -/
theorem iblk1_apply (c : Dev nD) (t : Fin cfg0.N) (r : Fin 256) (j : Fin 4096) :
    (iblk m c 1 t : Vec F S256x4096 .f32) (ix2 r j) = (V m c main_arg1 : S4096x4096.Idx → Elt F .f32) (ix2 (pointRow t r) j) := by
  obtain ⟨-, ⟨e0, e1⟩, -⟩ := in_index t
  unfold iblk
  rw [View.read_apply]
  show V m c main_arg1 _ = V m c main_arg1 _
  congr 1
  funext a; apply Fin.ext
  match a with
  | ⟨0, _⟩ => show win0_1.index t (0 : Fin 2) * 256 + 1 * r.val = 256 * t.val + r.val; rw [e0]; omega
  | ⟨1, _⟩ => show win0_1.index t (1 : Fin 2) * 4096 + 1 * j.val = j.val; rw [e1]; omega

/-- Before the region the gamma vector is recast from [128] to one row [1, 128]. -/
theorem V_gamma (c : Dev nD) :
    (V m c main_call0_v0 : S1x128.Idx → Elt F .f32)
      = shapeCast S1x128 (m ((c : Thread nD τ).loc main_arg3) : S128.Idx → Elt F .f32) shapeCasts_S128_S1x128 := by
  dsimp only [V, hostOps0]
  after_results
  rfl

/-- The gamma window hands the body the one row whole: entry (0, e) of the block is entry e of the argument. -/
theorem iblk3_apply (c : Dev nD) (t : Fin cfg0.N) (e : Fin 128) :
    (iblk m c 3 t : Vec F S1x128 .f32) (ix2 (0 : Fin 1) e) = (m ((c : Thread nD τ).loc main_arg3) : S128.Idx → Elt F .f32) (ix1 e) := by
  obtain ⟨-, -, -, ⟨e0, e1⟩, -⟩ := in_index t
  have hemb : ((cfg0.win 3).blk t).view.emb (ix2 (0 : Fin 1) e) = ix2 (0 : Fin 1) e := by
    funext a; apply Fin.ext
    match a with
    | ⟨0, _⟩ => show win0_3.index t (0 : Fin 2) * 1 + 1 * 0 = 0; rw [e0]
    | ⟨1, _⟩ => show win0_3.index t (1 : Fin 2) * 128 + 1 * e.val = e.val; rw [e1]; omega
  unfold iblk
  rw [View.read_apply]
  show V m c main_call0_v0 _ = _
  exact (congrArg (V m c main_call0_v0 : S1x128.Idx → Elt F .f32) hemb).trans
    ((congrFun (V_gamma m c) _).trans (shapeCast_a_1a_apply _ _ 0 e))

/-- Before the region the beta vector is recast from [128] to one row [1, 128]. -/
theorem V_beta (c : Dev nD) :
    (V m c main_call0_v1 : S1x128.Idx → Elt F .f32)
      = shapeCast S1x128 (m ((c : Thread nD τ).loc main_arg4) : S128.Idx → Elt F .f32) shapeCasts_S128_S1x128 := by
  dsimp only [V, hostOps0]
  after_results
  rfl

/-- The beta window hands the body the one row whole: entry (0, e) of the block is entry e of the argument. -/
theorem iblk4_apply (c : Dev nD) (t : Fin cfg0.N) (e : Fin 128) :
    (iblk m c 4 t : Vec F S1x128 .f32) (ix2 (0 : Fin 1) e) = (m ((c : Thread nD τ).loc main_arg4) : S128.Idx → Elt F .f32) (ix1 e) := by
  obtain ⟨-, -, -, -, ⟨e0, e1⟩⟩ := in_index t
  have hemb : ((cfg0.win 4).blk t).view.emb (ix2 (0 : Fin 1) e) = ix2 (0 : Fin 1) e := by
    funext a; apply Fin.ext
    match a with
    | ⟨0, _⟩ => show win0_4.index t (0 : Fin 2) * 1 + 1 * 0 = 0; rw [e0]
    | ⟨1, _⟩ => show win0_4.index t (1 : Fin 2) * 128 + 1 * e.val = e.val; rw [e1]; omega
  unfold iblk
  rw [View.read_apply]
  show V m c main_call0_v1 _ = _
  exact (congrArg (V m c main_call0_v1 : S1x128.Idx → Elt F .f32) hemb).trans
    ((congrFun (V_beta m c) _).trans (shapeCast_a_1a_apply _ _ 0 e))

end Cert.KernelIdeal.Windows

end
-- ==== Proof.PointAlgebra.lean ====
/-
  One entry of a grid point's output block is the layer's entry at the node the row stands for.

  The carried scratch holds, in column mm · 128 + e of row j, the projected feature Σ_d X(j, mm, d) · W(d, e):
  (mm · 128 + e) / 128 = mm and (mm · 128 + e) % 128 = e.  So when the point's slabs are the rows of the whole
  arrays (feature slab row r = node n, adjacency slab row r = adjacency row n, gamma and beta rows = the vectors),
  the pre-normalisation row of the block entry is x(n, mm, e) + 0.05 · Σ_j A(n, j) · Σ_d X(j, mm, d) · W(d, e), the
  layer's row in the arrangement "project first", and the normalisation is the same function of it.
-/
import proofs.«178782_g39178691674269_cont_8to1_b_350_2_alg».proof.Proof.PointSpec
import proofs.«178782_g39178691674269_cont_8to1_b_350_2_alg».proof.Proof.LayerSpec

noncomputable section

open scoped BigOperators

namespace Cert.PointSpec

open Idealize.ShloMosaic Idealize.ShloMosaic.ValueIdx Cert.LayerSpec

/-- The projected features in column mm · 128 + e: modality mm, feature e. -/
theorem projAt_scratchCol (x : (⟨3, ![4096, 4, 128]⟩ : Shape).Idx → EReal) (w : (⟨2, ![128, 128]⟩ : Shape).Idx → EReal)
    (j : Fin 4096) (mm : Fin 4) (e : Fin 128) :
    projAt x w j (scratchCol mm e) = ∑ d : Fin 128, x (ix3 j mm d) * w (ix2 d e) := by
  unfold projAt
  have h1 : ∀ (p : (scratchCol mm e).val / 128 < 4), (⟨(scratchCol mm e).val / 128, p⟩ : Fin 4) = mm :=
    fun p => Fin.ext (by
      show (mm.val * 128 + e.val) / 128 = mm.val
      have := mm.isLt; have := e.isLt; omega)
  have h2 : ∀ (p : (scratchCol mm e).val % 128 < 128), (⟨(scratchCol mm e).val % 128, p⟩ : Fin 128) = e :=
    fun p => Fin.ext (by
      show (mm.val * 128 + e.val) % 128 = e.val
      have := mm.isLt; have := e.isLt; omega)
  simp only [h1, h2]

/-- A block entry computed from the rows of the whole arrays is the layer's entry. -/
theorem blockAt_eq_layerAt
    (x : (⟨3, ![4096, 4, 128]⟩ : Shape).Idx → EReal) (a : (⟨2, ![4096, 4096]⟩ : Shape).Idx → EReal)
    (w : (⟨2, ![128, 128]⟩ : Shape).Idx → EReal) (g b : (⟨1, ![128]⟩ : Shape).Idx → EReal)
    (xt : Fin 4 → (⟨3, ![256, 1, 128]⟩ : Shape).Idx → EReal) (at' : (⟨2, ![256, 4096]⟩ : Shape).Idx → EReal)
    (gt bt : (⟨2, ![1, 128]⟩ : Shape).Idx → EReal)
    (n : Fin 4096) (r : Fin 256) (mm : Fin 4) (q : Fin 128)
    (hx : ∀ (mm' : Fin 4) (e : Fin 128), xt mm' (ix3 r (0 : Fin 1) e) = x (ix3 n mm' e))
    (ha : ∀ j : Fin 4096, at' (ix2 r j) = a (ix2 n j))
    (hg : ∀ e : Fin 128, gt (ix2 (0 : Fin 1) e) = g (ix1 e)) (hb : ∀ e : Fin 128, bt (ix2 (0 : Fin 1) e) = b (ix1 e)) :
    blockAt xt at' gt bt (projected x w) r mm q = Cert.LayerSpec.layerAt x a w g b n mm q := by
  have hrow : (fun e => xt mm (ix3 r (0 : Fin 1) e)
        + mixWeight * ∑ j : Fin 4096, at' (ix2 r j) * projected x w (ix2 j (scratchCol mm e)))
      = fun e' => feat x n mm e' + mixWeight * mixProjectFirst (mat a) (feat x) (mat w) n mm e' := by
    funext e
    have hs : ∑ j : Fin 4096, at' (ix2 r j) * projected x w (ix2 j (scratchCol mm e))
        = mixProjectFirst (mat a) (feat x) (mat w) n mm e := by
      unfold mixProjectFirst
      refine Finset.sum_congr rfl fun j _ => ?_
      rw [ha, projected_ix2, projAt_scratchCol]
    rw [hx, hs]
  have hg' : (fun e => gt (ix2 (0 : Fin 1) e)) = vec g := funext hg
  have hb' : (fun e => bt (ix2 (0 : Fin 1) e)) = vec b := funext hb
  unfold blockAt Cert.LayerSpec.layerAt
  rw [hrow, hg', hb']

end Cert.PointSpec

end
-- ==== Proof.KernelFinal.lean ====
/-
  From the grid points' blocks to the whole result array.

  Point t of the sixteen writes back the block of rows 256·t … 256·t + 255 of the result.  When what it writes
  back is the point's block function of its slabs — the feature slabs are rows 256·t + r of the whole feature array,
  the adjacency slab is rows 256·t + r of the adjacency, gamma and beta are the vectors as one row, and the carried
  scratch holds the projected features — then entry (r, mm, q) of the block is the layer's entry at
  (256·t + r, mm, q), which is where that entry of the block lands in the array.  So every block is the layer read
  through the block's window, the sixteen blocks cover the array, and the array ends holding the layer.
-/
import proofs.«178782_g39178691674269_cont_8to1_b_350_2_alg».proof.Proof.Gen.KernelIdeal.Value
import proofs.«178782_g39178691674269_cont_8to1_b_350_2_alg».proof.Proof.KernelCases
import proofs.«178782_g39178691674269_cont_8to1_b_350_2_alg».proof.Proof.KernelWindows
import proofs.«178782_g39178691674269_cont_8to1_b_350_2_alg».proof.Proof.PointAlgebra
import proofs.«178782_g39178691674269_cont_8to1_b_350_2_alg».proof.Proof.LayerSpec

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Cert.KernelIdeal.Windows
open Idealize.ShloMosaic.Pipeline (Dat)

/-- The point's slab for modality mm reads, at (r, ·, e), the features' entry (256·t + r, mm, e). -/
theorem slabs_apply (t : Fin cfg0.N) (X : Vec Ideal S4096x4x128 .f32) (r : Fin 256) (mm : Fin 4) (e : Fin 128) :
    Cert.KernelIdeal.Cases.slabs (grid0.coords t) X mm (ix3 r (0 : Fin 1) e) = X (ix3 (pointRow t r) mm e) := by
  match mm with
  | ⟨0, _⟩ => exact rowSlab1_apply t X r e
  | ⟨1, _⟩ => exact rowSlab2_apply t X r e
  | ⟨2, _⟩ => exact rowSlab3_apply t X r e
  | ⟨3, _⟩ => exact rowSlab4_apply t X r e

/-- One point, over any arrays: the block function of the point's slabs is the layer read through the point's
    output window. -/
theorem block_eq_read (t : Fin cfg0.N)
    (X : (⟨3, ![4096, 4, 128]⟩ : Shape).Idx → EReal) (A : (⟨2, ![4096, 4096]⟩ : Shape).Idx → EReal)
    (W : (⟨2, ![128, 128]⟩ : Shape).Idx → EReal) (g b : (⟨1, ![128]⟩ : Shape).Idx → EReal)
    (at' : (⟨2, ![256, 4096]⟩ : Shape).Idx → EReal) (gt bt : (⟨2, ![1, 128]⟩ : Shape).Idx → EReal)
    (ha : ∀ (r : Fin 256) (j : Fin 4096), at' (ix2 r j) = A (ix2 (pointRow t r) j))
    (hg : ∀ e : Fin 128, gt (ix2 (0 : Fin 1) e) = g (ix1 e)) (hb : ∀ e : Fin 128, bt (ix2 (0 : Fin 1) e) = b (ix1 e)) :
    Cert.PointSpec.block (Cert.KernelIdeal.Cases.slabs (grid0.coords t) X) at' gt bt (Cert.PointSpec.projected X W)
      = ((cfg0.win 5).blk t).view.read (Elt Ideal) (Cert.LayerSpec.layer X A W g b) := by
  funext y
  obtain ⟨r, mm, q, rfl⟩ : ∃ (r : Fin 256) (mm : Fin 4) (q : Fin 128), y = ix3 r mm q := ⟨y 0, y 1, y 2, eq_ix3 y⟩
  rw [View.read_apply]
  show Cert.PointSpec.blockAt _ _ _ _ _ r mm q = Cert.LayerSpec.layer X A W g b (((cfg0.win 5).blk t).view.emb (ix3 r mm q))
  rw [outBlk_emb, Cert.LayerSpec.layer_ix3]
  exact Cert.PointSpec.blockAt_eq_layerAt X A W g b _ at' gt bt (pointRow t r) r mm q
    (fun mm' e => slabs_apply t X r mm' e) (ha r) hg hb

variable (m : (ℓ : Loc nD τ sig) → Buf (Elt Ideal) ℓ)

/-- What point t writes back is the layer of the argument arrays read through the point's output window. -/
theorem flushed_eq (c : Dev nD) (t : Fin cfg0.N)
    (hout : (outsAt0 m c t.val t.isLt).1
        = Cert.PointSpec.block (Cert.KernelIdeal.Cases.slabs (grid0.coords t) (V m c main_arg0)) (iblk m c 1 t) (iblk m c 3 t) (iblk m c 4 t)
            (Cert.PointSpec.projected (V m c main_arg0) (V m c main_arg2))) :
    (dats m 0 c).flushed 5 t = ((cfg0.win 5).blk t).view.read (Elt Ideal)
        (Cert.LayerSpec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine ((Value.flushed5 m c t).trans (cut5_eq t _)).trans (hout.trans ?_)
  rw [V_main_arg0 m c, V_main_arg2 m c]
  exact block_eq_read t _ _ _ _ _ _ _ _
    (fun r j => (iblk1_apply m c t r j).trans (congrFun (V_main_arg1 m c) _)) (iblk3_apply m c t) (iblk4_apply m c t)

/-- The result array after the run is the layer of the argument arrays. -/
theorem final (c : Dev nD)
    (hout : ∀ t : Fin cfg0.N, (outsAt0 m c t.val t.isLt).1
        = Cert.PointSpec.block (Cert.KernelIdeal.Cases.slabs (grid0.coords t) (V m c main_arg0)) (iblk m c 1 t) (iblk m c 3 t) (iblk m c 4 t)
            (Cert.PointSpec.projected (V m c main_arg0) (V m c main_arg2))) :
    (dats m 0 c).arrAt 5 cfg0.N = Cert.LayerSpec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 5 _ (fun t _ => flushed_eq m c t (hout t)) cover5

/-- The kernel's run, given what each point writes back: the result is the layer of the arguments, the arguments
    unchanged. -/
theorem run_of_blocks (ρ : Dev nD → PrngReg)
    (hout : ∀ (c : Dev nD) (t : Fin cfg0.N), (outsAt0 m c t.val t.isLt).1
        = Cert.PointSpec.block (Cert.KernelIdeal.Cases.slabs (grid0.coords t) (V m c main_arg0)) (iblk m c 1 t) (iblk m c 3 t) (iblk m c 4 t)
            (Cert.PointSpec.projected (V m c main_arg0) (V m c main_arg2))) :
    θ_run (defs (F := Ideal)) (onTc (τ := τ) (main (F := Ideal))) ⟨m, fun _ => 0, ρ⟩ fun r => ∀ c : Dev nD,
      r.2.mem ((c.tc : Thread nD τ).loc main_v0) = Cert.LayerSpec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c (hout c)), (h c).2⟩) (Value.run_blocks m ρ)

end Cert.KernelIdeal.Final

end
-- ==== Proof.KernelSweep.lean ====
/-
  The sweep over the sixteen grid points.

  The first point fills the carried scratch with the projected features Y = X · blockdiag(W) and no later point
  stores into it, so after every point the scratch holds Y (induction on the point).  Hence at every point, first
  or later, the output block is the point's block function of its feature slabs, its adjacency rows, gamma, beta
  and Y.
-/
import proofs.«178782_g39178691674269_cont_8to1_b_350_2_alg».proof.Proof.KernelCases
import proofs.«178782_g39178691674269_cont_8to1_b_350_2_alg».proof.Proof.KernelWindows
import proofs.«178782_g39178691674269_cont_8to1_b_350_2_alg».proof.Proof.KernelFinal

set_option maxRecDepth 16384

noncomputable section

namespace Cert.KernelIdeal.Sweep

open Cert.KernelIdeal Cert.KernelIdeal.Gen Cert.KernelIdeal.Cases Cert.PointSpec
open Idealize.ShloMosaic Idealize.ShloMosaic.TcCoe Idealize.SL.Sem

variable (m : (ℓ : Loc nD τ sig) → Buf (Elt Ideal) ℓ)

/-- The run's contents after a point depend on the point's position only. -/
theorem outsAt0_congr (c : Dev nD) {k k' : ℕ} (e : k = k') (hk : k < cfg0.N) (hk' : k' < cfg0.N) :
    outsAt0 m c k hk = outsAt0 m c k' hk' := by
  subst e; rfl

/-- AFTER EVERY POINT THE SCRATCH HOLDS THE PROJECTED FEATURES: the first point stores them, a later point stores
    nothing into the scratch. -/
theorem scratch_after (c : Dev nD) : ∀ (n : ℕ) (hn : n < cfg0.N),
    (outsAt0 m c n hn).2 = projected (V m c main_arg0) (V m c main_arg2)
  | 0, hn => by
    rw [outsAt0_A m c ⟨0, hn⟩ (Nat.zero_mod 16)]
    dsimp only
    refine (sout0_A_0_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod 16)) (iblk m c 0 ⟨0, hn⟩) (iblk m c 1 ⟨0, hn⟩) (iblk m c 2 ⟨0, hn⟩) (iblk m c 3 ⟨0, hn⟩) (iblk m c 4 ⟨0, hn⟩)).trans ?_
    exact congrArg₂ projected (Windows.iblk0_eq m c ⟨0, hn⟩) (Windows.iblk2_eq m c ⟨0, hn⟩)
  | n + 1, hn => by
    have hN : cfg0.N = 16 := N_0
    have h0 : ¬(n + 1) % 16 = 0 := by omega
    rw [outsAt0_B m c ⟨n + 1, hn⟩ h0]
    dsimp only
    unfold sout0_B_0
    exact (congrArg Prod.snd (outsAt0_congr m c rfl _ (Nat.lt_of_succ_lt hn))).trans (scratch_after c n (Nat.lt_of_succ_lt hn))

/-- AT EVERY POINT THE OUTPUT BLOCK is the point's block function of its feature slabs, its adjacency rows, gamma,
    beta and the projected features. -/
theorem block_after (c : Dev nD) (t : Fin cfg0.N) :
    (outsAt0 m c t.val t.isLt).1
      = block (slabs (grid0.coords t) (V m c main_arg0)) (iblk m c 1 t) (iblk m c 3 t) (iblk m c 4 t)
          (projected (V m c main_arg0) (V m c main_arg2)) := by
  by_cases h0 : t.val % 16 = 0
  · rw [outsAt0_A m c t h0]
    dsimp only
    refine (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    exact congrArg₂ (fun (x0 : Vec Ideal S4096x4x128 .f32) (x2 : Vec Ideal S128x128 .f32) =>
        block (slabs (grid0.coords t) x0) (iblk m c 1 t) (iblk m c 3 t) (iblk m c 4 t) (projected x0 x2))
      (Windows.iblk0_eq m c t) (Windows.iblk2_eq m c t)
  · rw [outsAt0_B m c t h0]
    dsimp only
    refine (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).trans ?_
    exact congrArg₂ (fun (x0 : Vec Ideal S4096x4x128 .f32) (ys : Vec Ideal S4096x512 .bf16) =>
        block (slabs (grid0.coords t) x0) (iblk m c 1 t) (iblk m c 3 t) (iblk m c 4 t) ys)
      (Windows.iblk0_eq m c t) (scratch_after m c (t.val - 1) (Nat.lt_of_le_of_lt (Nat.sub_le _ _) t.isLt))

/-- THE KERNEL'S RUN: every weakly fair execution terminates with the result array at the layer specification of
    the arguments' launch contents, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.LayerSpec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.KernelIdeal.Final.run_of_blocks m ρ (block_after m)

end Cert.KernelIdeal.Sweep

end
-- ==== Proof.lean ====
/-
  The kernel and its reference compute the same layer.

  For a node n, a modality mm and a feature e the layer is the row normalisation, scaled by gamma and shifted by
  beta, of the row v(e) = X(n, mm, e) + 0.05 · (A · X · W)(n, mm, e) over its 128 features.  The kernel projects every
  node first (X · W, carried in a scratch array), sums over the neighbourhood second, and normalises with a
  reciprocal square root; the reference sums over the neighbourhood first (A · X), projects second, and normalises
  with a quotient by the square root.  On the extended reals the two arrangements of the triple product agree when
  the entries are real numbers, which the precondition (every input entry has absolute value below +infinity)
  provides; the variance plus its positive floor is then a positive real number, for which the quotient by the square
  root is the product with the reciprocal square root.

  The three frame claims are the programs' runs with the result dropped; the kernel is read at the extended reals
  as printed (no operation was rewritten); the equivalence claim is the two runs joined by the algebra above.
-/
import proofs.«178782_g39178691674269_cont_8to1_b_350_2_alg».proof.Defs
import proofs.«178782_g39178691674269_cont_8to1_b_350_2_alg».proof.Proof.Gen.Kernel
import proofs.«178782_g39178691674269_cont_8to1_b_350_2_alg».proof.Proof.Gen.Kernel.Skeleton
import proofs.«178782_g39178691674269_cont_8to1_b_350_2_alg».proof.Proof.Gen.Kernel.Launch
import proofs.«178782_g39178691674269_cont_8to1_b_350_2_alg».proof.Proof.Gen.Kernel.Points
import proofs.«178782_g39178691674269_cont_8to1_b_350_2_alg».proof.Proof.Gen.Kernel.Frame
import proofs.«178782_g39178691674269_cont_8to1_b_350_2_alg».proof.Proof.Gen.KernelIdeal
import proofs.«178782_g39178691674269_cont_8to1_b_350_2_alg».proof.Proof.Gen.KernelIdeal.Skeleton
import proofs.«178782_g39178691674269_cont_8to1_b_350_2_alg».proof.Proof.Gen.KernelIdeal.Launch
import proofs.«178782_g39178691674269_cont_8to1_b_350_2_alg».proof.Proof.Gen.KernelIdeal.Points
import proofs.«178782_g39178691674269_cont_8to1_b_350_2_alg».proof.Proof.Gen.KernelIdeal.Frame
import proofs.«178782_g39178691674269_cont_8to1_b_350_2_alg».proof.Proof.Gen.ReferenceIdeal
import proofs.«178782_g39178691674269_cont_8to1_b_350_2_alg».proof.Proof.Gen.Pre_finite_inputs
import proofs.«178782_g39178691674269_cont_8to1_b_350_2_alg».proof.Proof.RefRun
import proofs.«178782_g39178691674269_cont_8to1_b_350_2_alg».proof.Proof.RefValue
import proofs.«178782_g39178691674269_cont_8to1_b_350_2_alg».proof.Proof.LayerAlgebra
import proofs.«178782_g39178691674269_cont_8to1_b_350_2_alg».proof.Proof.FiniteInputs
import proofs.«178782_g39178691674269_cont_8to1_b_350_2_alg».proof.Proof.Bridge
import proofs.«178782_g39178691674269_cont_8to1_b_350_2_alg».proof.Proof.KernelSweep
import Idealize.ShloMosaic.Adequacy
import Idealize.ShloMosaic.Init

noncomputable section

namespace Cert.Proof

open Idealize.ShloMosaic Idealize.SL.Sem

/-- The kernel as printed runs and leaves its arguments unchanged. -/
theorem frame_Kernel : Cert.frame_Kernel := fun m ρ _ => Cert.Kernel.Gen.frame m ρ

/-- The kernel at the extended reals runs and leaves its arguments unchanged. -/
theorem frame_KernelIdeal : Cert.frame_KernelIdeal := fun m ρ _ => Cert.KernelIdeal.Gen.frame m ρ

/-- The reference at the extended reals runs and leaves its arguments unchanged: its run with the result dropped. -/
theorem frame_ReferenceIdeal : Cert.frame_ReferenceIdeal := fun m ρ _ =>
  (θ_run Cert.ReferenceIdeal.defs _ _).mono (fun _ h c => (h c).2) (Cert.ReferenceIdeal.RefValue.run (F := Ideal) m ρ)

/-- No operation of the kernel was rewritten for the reading at the extended reals. -/
theorem preserves : Cert.preserves_Kernel_KernelIdeal := trivial

/-- Both programs end with the layer of their (agreeing) arguments. -/
theorem algebraic : Cert.algebraic_KernelIdeal_ReferenceIdeal :=
  Cert.Proof.Bridge.algebraic_of_kernelRun Cert.KernelIdeal.Sweep.run

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
